-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S32x128 .f32 .bf16
  ∧ IdealRules.truncf_extf.Statement Cert.KernelIdeal.S512 .f32 .bf16
  ∧ IdealRules.truncf_extf.Statement Cert.KernelIdeal.S1x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x4096 : Shape := ⟨3, ![1, 32, 4096]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩

class Facts : Prop where
  bcast_S_S1x32x4096 : S_.BroadcastsInDim S1x32x4096 (![] : Fin 0 → Fin S1x32x4096.rank)
  reducesTo_S1x32x4096_S_d0_1_2 : S1x32x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S1x32x4096 .f32) (main_arg1 : IVec S4096x11008 32) (main_arg2 : IVec S32x11008 32) (main_arg3 : FVec F S32x11008 .f32) (main_arg4 : FVec F S11008 .f32) : IVec S_ 1 :=
  let main_v0 : FVec F S1x32x4096 .f32 := Host.absf main_arg0
  let main_cst : FVec F S_ .f32 := constant S_ .f32 0x7F800000#32
  let main_v1 : FVec F S1x32x4096 .f32 := broadcastInDim S1x32x4096 ![] bcast_S_S1x32x4096 main_cst
  let main_v2 : IVec S1x32x4096 1 := cmpf .olt main_v0 main_v1
  let main_c : IVec S_ 1 := constantI S_ 1 1#1
  let main_v3 : IVec S_ 1 := (fun x v => Host.reduce IntOp.andi x v reducesTo_S1x32x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S1x32x4096 : Shape := ⟨3, ![1, 32, 4096]⟩
abbrev S4096x11008 : Shape := ⟨2, ![4096, 11008]⟩
abbrev S32x11008 : Shape := ⟨2, ![32, 11008]⟩
abbrev S11008 : Shape := ⟨1, ![11008]⟩
abbrev S32x4096 : Shape := ⟨2, ![32, 4096]⟩
abbrev S1x11008 : Shape := ⟨2, ![1, 11008]⟩
abbrev S4096x512 : Shape := ⟨2, ![4096, 512]⟩
abbrev S32x512 : Shape := ⟨2, ![32, 512]⟩
abbrev S1x512 : Shape := ⟨2, ![1, 512]⟩
abbrev S32x128 : Shape := ⟨2, ![32, 128]⟩
abbrev S32 : Shape := ⟨1, ![32]⟩
abbrev S32x1 : Shape := ⟨2, ![32, 1]⟩
abbrev S128x512 : Shape := ⟨2, ![128, 512]⟩
abbrev S512 : Shape := ⟨1, ![512]⟩
abbrev S1x32x11008 : Shape := ⟨3, ![1, 32, 11008]⟩

abbrev nBuf : Space → Nat
  | .hbm => 9
  | .vmem => 11
  | .smem => 0
  | _ => 0

abbrev bufTy : (tb : Table) → Fin (tcTables nBuf tb) → BufTy
  | .hbm, ⟨0, _⟩ => ⟨S1x32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S32x4096, .f32⟩
  | .hbm, ⟨6, _⟩ => ⟨S1x11008, .f32⟩
  | .hbm, ⟨7, _⟩ => ⟨S32x11008, .f32⟩
  | .hbm, ⟨8, _⟩ => ⟨S1x32x11008, .f32⟩
  | .local _ .vmem, ⟨0, _⟩ => ⟨S32x4096, .f32⟩
  | .local _ .vmem, ⟨1, _⟩ => ⟨S4096x512, .i32⟩
  | .local _ .vmem, ⟨2, _⟩ => ⟨S4096x512, .i32⟩
  | .local _ .vmem, ⟨3, _⟩ => ⟨S32x512, .i32⟩
  | .local _ .vmem, ⟨4, _⟩ => ⟨S32x512, .i32⟩
  | .local _ .vmem, ⟨5, _⟩ => ⟨S32x512, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S32x512, .f32⟩
  | .local _ .vmem, ⟨10, _⟩ => ⟨S32x512, .f32⟩
  | _, _ => ⟨S1x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![22], ![false]⟩

def k0_off1 (c0_i32 : BitVec 32) : Fin 2 → Nat :=
  let c0 : Index := 0#32
  let c128_i32 : BitVec 32 := 128#32
  let v1 : BitVec 32 := Scalar.muli c0_i32 c128_i32
  let v2 : Index := Scalar.indexCast v1
  ![0, v2.toNat]
def k0_off2 (c0_i32 : BitVec 32) : Fin 2 → Nat :=
  let c128_i32_1 : BitVec 32 := 128#32
  let v9 : BitVec 32 := Scalar.muli c0_i32 c128_i32_1
  let v10 : Index := Scalar.indexCast v9
  let c0_2 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x32x4096_S32x4096 : S1x32x4096.ShapeCasts S32x4096
  shapeCasts_S11008_S1x11008 : S11008.ShapeCasts S1x11008
  h_S32x128 : 0 < S32x128.numel
  shapeCasts_S32x128_S32x128 : S32x128.ShapeCasts S32x128
  bitsLt_bf16_f32 : FTy.bits .bf16 < FTy.bits .f32
  reduces_S32x128_S32 : S32x128.Reduces [1] S32
  shapeCasts_S32_S32x1 : S32.ShapeCasts S32x1
  h_S128x512 : 0 < S128x512.numel
  inb_S32x512_S1x512_0_0 : ∀ a, (![0, 0] : Fin 2 → Nat) a + S1x512.size a ≤ S32x512.size a
  h_S1x512 : 0 < S1x512.numel
  shapeCasts_S1x512_S512 : S1x512.ShapeCasts S512
  shapeCasts_S512_S1x512 : S512.ShapeCasts S1x512
  broadcasts_S32x1_S32x512 : S32x1.Broadcasts S32x512
  broadcasts_S1x512_S32x512 : S1x512.Broadcasts S32x512
  inb_S32x512_S1x512_1_0 : ∀ a, (![1, 0] : Fin 2 → Nat) a + S1x512.size a ≤ S32x512.size a
  inb_S32x512_S1x512_2_0 : ∀ a, (![2, 0] : Fin 2 → Nat) a + S1x512.size a ≤ S32x512.size a
  inb_S32x512_S1x512_3_0 : ∀ a, (![3, 0] : Fin 2 → Nat) a + S1x512.size a ≤ S32x512.size a
  inb_S32x512_S1x512_4_0 : ∀ a, (![4, 0] : Fin 2 → Nat) a + S1x512.size a ≤ S32x512.size a
  inb_S32x512_S1x512_5_0 : ∀ a, (![5, 0] : Fin 2 → Nat) a + S1x512.size a ≤ S32x512.size a
  inb_S32x512_S1x512_6_0 : ∀ a, (![6, 0] : Fin 2 → Nat) a + S1x512.size a ≤ S32x512.size a
  inb_S32x512_S1x512_7_0 : ∀ a, (![7, 0] : Fin 2 → Nat) a + S1x512.size a ≤ S32x512.size a
  inb_S32x512_S1x512_8_0 : ∀ a, (![8, 0] : Fin 2 → Nat) a + S1x512.size a ≤ S32x512.size a
  inb_S32x512_S1x512_9_0 : ∀ a, (![9, 0] : Fin 2 → Nat) a + S1x512.size a ≤ S32x512.size a
  inb_S32x512_S1x512_10_0 : ∀ a, (![10, 0] : Fin 2 → Nat) a + S1x512.size a ≤ S32x512.size a
  inb_S32x512_S1x512_11_0 : ∀ a, (![11, 0] : Fin 2 → Nat) a + S1x512.size a ≤ S32x512.size a
  inb_S32x512_S1x512_12_0 : ∀ a, (![12, 0] : Fin 2 → Nat) a + S1x512.size a ≤ S32x512.size a
  inb_S32x512_S1x512_13_0 : ∀ a, (![13, 0] : Fin 2 → Nat) a + S1x512.size a ≤ S32x512.size a
  inb_S32x512_S1x512_14_0 : ∀ a, (![14, 0] : Fin 2 → Nat) a + S1x512.size a ≤ S32x512.size a
  inb_S32x512_S1x512_15_0 : ∀ a, (![15, 0] : Fin 2 → Nat) a + S1x512.size a ≤ S32x512.size a
  inb_S32x512_S1x512_16_0 : ∀ a, (![16, 0] : Fin 2 → Nat) a + S1x512.size a ≤ S32x512.size a
  inb_S32x512_S1x512_17_0 : ∀ a, (![17, 0] : Fin 2 → Nat) a + S1x512.size a ≤ S32x512.size a
  inb_S32x512_S1x512_18_0 : ∀ a, (![18, 0] : Fin 2 → Nat) a + S1x512.size a ≤ S32x512.size a
  inb_S32x512_S1x512_19_0 : ∀ a, (![19, 0] : Fin 2 → Nat) a + S1x512.size a ≤ S32x512.size a
  inb_S32x512_S1x512_20_0 : ∀ a, (![20, 0] : Fin 2 → Nat) a + S1x512.size a ≤ S32x512.size a
  inb_S32x512_S1x512_21_0 : ∀ a, (![21, 0] : Fin 2 → Nat) a + S1x512.size a ≤ S32x512.size a
  inb_S32x512_S1x512_22_0 : ∀ a, (![22, 0] : Fin 2 → Nat) a + S1x512.size a ≤ S32x512.size a
  inb_S32x512_S1x512_23_0 : ∀ a, (![23, 0] : Fin 2 → Nat) a + S1x512.size a ≤ S32x512.size a
  inb_S32x512_S1x512_24_0 : ∀ a, (![24, 0] : Fin 2 → Nat) a + S1x512.size a ≤ S32x512.size a
  inb_S32x512_S1x512_25_0 : ∀ a, (![25, 0] : Fin 2 → Nat) a + S1x512.size a ≤ S32x512.size a
  inb_S32x512_S1x512_26_0 : ∀ a, (![26, 0] : Fin 2 → Nat) a + S1x512.size a ≤ S32x512.size a
  inb_S32x512_S1x512_27_0 : ∀ a, (![27, 0] : Fin 2 → Nat) a + S1x512.size a ≤ S32x512.size a
  inb_S32x512_S1x512_28_0 : ∀ a, (![28, 0] : Fin 2 → Nat) a + S1x512.size a ≤ S32x512.size a
  inb_S32x512_S1x512_29_0 : ∀ a, (![29, 0] : Fin 2 → Nat) a + S1x512.size a ≤ S32x512.size a
  inb_S32x512_S1x512_30_0 : ∀ a, (![30, 0] : Fin 2 → Nat) a + S1x512.size a ≤ S32x512.size a
  inb_S32x512_S1x512_31_0 : ∀ a, (![31, 0] : Fin 2 → Nat) a + S1x512.size a ≤ S32x512.size a
  inb_S1x512_S1x512_0_0 : ∀ a, (![0, 0] : Fin 2 → Nat) a + S1x512.size a ≤ S1x512.size a
  shapeCasts_S1x512_S1x512 : S1x512.ShapeCasts S1x512
  inb_S32x512_S32x512_0_0 : ∀ a, (![0, 0] : Fin 2 → Nat) a + S32x512.size a ≤ S32x512.size a
  h_S32x512 : 0 < S32x512.numel
  shapeCasts_S32x11008_S1x32x11008 : S32x11008.ShapeCasts S1x32x11008
  dot_S32x128_S128x512_S32x512_1_0_0_1_n_n_wf : DotDims.WF S32x128 S128x512 S32x512 [1] [0] [0] [1] [] []
  hrank0 : 0 < grid0.rank
  k0_off1_inb : ∀ (r : Fin 32), ∀ a, (k0_off1 (BitVec.ofNat 32 r.val)) a + S32x128.size a ≤ S32x4096.size a
  k0_off2_inb : ∀ (r : Fin 32), ∀ a, (k0_off2 (BitVec.ofNat 32 r.val)) a + S128x512.size a ≤ S4096x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x512.size a < S4096x11008.size a
  hwx0_1 : ∀ i : grid0.Coords, EltTy.bits .i32 = 32 ∨ (Rect.unit (s := S4096x11008) (fun a => cc0_transform_1 i a * S4096x512.size a) (fun a => (Pipeline.Clip.of (cc0_transform_1 i a) (S4096x512.size a) (S4096x11008.size a)).extent (S4096x512.size a)) fun a => Pipeline.Clip.inb (Pipeline.Clip.ok_of (hstart0_1 i a))).WholeWords (EltTy.packing .i32)
  hwxs0_1 : ∀ i : grid0.Coords, EltTy.bits .i32 = 32 ∨ (Rect.unit (s := S4096x512) (fun _ => 0) (fun a => (Pipeline.Clip.of (cc0_transform_1 i a) (S4096x512.size a) (S4096x11008.size a)).extent (S4096x512.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x512.size a < S32x11008.size a
  hwx0_2 : ∀ i : grid0.Coords, EltTy.bits .i32 = 32 ∨ (Rect.unit (s := S32x11008) (fun a => cc0_transform_2 i a * S32x512.size a) (fun a => (Pipeline.Clip.of (cc0_transform_2 i a) (S32x512.size a) (S32x11008.size a)).extent (S32x512.size a)) fun a => Pipeline.Clip.inb (Pipeline.Clip.ok_of (hstart0_2 i a))).WholeWords (EltTy.packing .i32)
  hwxs0_2 : ∀ i : grid0.Coords, EltTy.bits .i32 = 32 ∨ (Rect.unit (s := S32x512) (fun _ => 0) (fun a => (Pipeline.Clip.of (cc0_transform_2 i a) (S32x512.size a) (S32x11008.size a)).extent (S32x512.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x512.size a < S32x11008.size a
  hwx0_3 : ∀ i : grid0.Coords, EltTy.bits .f32 = 32 ∨ (Rect.unit (s := S32x11008) (fun a => cc0_transform_3 i a * S32x512.size a) (fun a => (Pipeline.Clip.of (cc0_transform_3 i a) (S32x512.size a) (S32x11008.size a)).extent (S32x512.size a)) fun a => Pipeline.Clip.inb (Pipeline.Clip.ok_of (hstart0_3 i a))).WholeWords (EltTy.packing .f32)
  hwxs0_3 : ∀ i : grid0.Coords, EltTy.bits .f32 = 32 ∨ (Rect.unit (s := S32x512) (fun _ => 0) (fun a => (Pipeline.Clip.of (cc0_transform_3 i a) (S32x512.size a) (S32x11008.size a)).extent (S32x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x512.size a < S1x11008.size a
  hwx0_4 : ∀ i : grid0.Coords, EltTy.bits .f32 = 32 ∨ (Rect.unit (s := S1x11008) (fun a => cc0_transform_4 i a * S1x512.size a) (fun a => (Pipeline.Clip.of (cc0_transform_4 i a) (S1x512.size a) (S1x11008.size a)).extent (S1x512.size a)) fun a => Pipeline.Clip.inb (Pipeline.Clip.ok_of (hstart0_4 i a))).WholeWords (EltTy.packing .f32)
  hwxs0_4 : ∀ i : grid0.Coords, EltTy.bits .f32 = 32 ∨ (Rect.unit (s := S1x512) (fun _ => 0) (fun a => (Pipeline.Clip.of (cc0_transform_4 i a) (S1x512.size a) (S1x11008.size a)).extent (S1x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S32x512.size a < S32x11008.size a
  hwx0_5 : ∀ i : grid0.Coords, EltTy.bits .f32 = 32 ∨ (Rect.unit (s := S32x11008) (fun a => cc0_transform_5 i a * S32x512.size a) (fun a => (Pipeline.Clip.of (cc0_transform_5 i a) (S32x512.size a) (S32x11008.size a)).extent (S32x512.size a)) fun a => Pipeline.Clip.inb (Pipeline.Clip.ok_of (hstart0_5 i a))).WholeWords (EltTy.packing .f32)
  hwxs0_5 : ∀ i : grid0.Coords, EltTy.bits .f32 = 32 ∨ (Rect.unit (s := S32x512) (fun _ => 0) (fun a => (Pipeline.Clip.of (cc0_transform_5 i a) (S32x512.size a) (S32x11008.size a)).extent (S32x512.size a)) fun a => (Nat.zero_add _).trans_le (Pipeline.Clip.extent_le (Pipeline.Clip.ok_of (hstart0_5 i a)))).WholeWords (EltTy.packing .f32)

variable [Facts₀]

def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf

abbrev win0_0 : Pipeline.Window sig grid0 :=
  Pipeline.Window.ofSpec (Memref.whole main_v0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S32x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S32x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1) S1x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v2) S32x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x32x4096 : Shape := ⟨3, ![1, 32, 4096]⟩
abbrev S4096x11008 : Shape := ⟨2, ![4096, 11008]⟩
abbrev S32x11008 : Shape := ⟨2, ![32, 11008]⟩
abbrev S11008 : Shape := ⟨1, ![11008]⟩
abbrev S32x128x11008 : Shape := ⟨3, ![32, 128, 11008]⟩
abbrev S32x1x11008 : Shape := ⟨3, ![32, 1, 11008]⟩
abbrev S1x32x11008 : Shape := ⟨3, ![1, 32, 11008]⟩
abbrev S1x1x11008 : Shape := ⟨3, ![1, 1, 11008]⟩

abbrev nBuf : Space → Nat
  | .hbm => 25
  | .vmem => 0
  | .smem => 0
  | _ => 0

abbrev bufTy : (tb : Table) → Fin (tcTables nBuf tb) → BufTy
  | .hbm, ⟨0, _⟩ => ⟨S1x32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S32x128x11008, .i32⟩
  | .hbm, ⟨6, _⟩ => ⟨S32x128x11008, .f32⟩
  | .hbm, ⟨7, _⟩ => ⟨S32x11008, .bf16⟩
  | .hbm, ⟨8, _⟩ => ⟨S32x11008, .f32⟩
  | .hbm, ⟨9, _⟩ => ⟨S32x1x11008, .i32⟩
  | .hbm, ⟨10, _⟩ => ⟨S32x1x11008, .f32⟩
  | .hbm, ⟨11, _⟩ => ⟨S32x128x11008, .f32⟩
  | .hbm, ⟨12, _⟩ => ⟨S32x128x11008, .f32⟩
  | .hbm, ⟨13, _⟩ => ⟨S32x1x11008, .f32⟩
  | .hbm, ⟨14, _⟩ => ⟨S32x128x11008, .f32⟩
  | .hbm, ⟨15, _⟩ => ⟨S32x128x11008, .f32⟩
  | .hbm, ⟨16, _⟩ => ⟨S4096x11008, .f32⟩
  | .hbm, ⟨17, _⟩ => ⟨S1x32x4096, .bf16⟩
  | .hbm, ⟨18, _⟩ => ⟨S1x32x4096, .f32⟩
  | .hbm, ⟨19, _⟩ => ⟨S11008, .bf16⟩
  | .hbm, ⟨20, _⟩ => ⟨S11008, .f32⟩
  | .hbm, ⟨21, _⟩ => ⟨S1x32x11008, .f32⟩
  | .hbm, ⟨22, _⟩ => ⟨S1x1x11008, .f32⟩
  | .hbm, ⟨23, _⟩ => ⟨S1x32x11008, .f32⟩
  | .hbm, ⟨24, _⟩ => ⟨S1x32x11008, .f32⟩
  | _, _ => ⟨S1x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  shapeCasts_S4096x11008_S32x128x11008 : S4096x11008.ShapeCasts S32x128x11008
  bitsLt_bf16_f32 : FTy.bits .bf16 < FTy.bits .f32
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x1x11008_2 : S11008.BroadcastsInDim S1x1x11008 (![2] : Fin 1 → Fin S1x1x11008.rank)
  bcast_S1x1x11008_S1x32x11008_0_1_2 : S1x1x11008.BroadcastsInDim S1x32x11008 (![0, 1, 2] : Fin 3 → Fin S1x32x11008.rank)
  dot_S1x32x4096_S4096x11008_S1x32x11008_2_0_01_1_n_n_wf : DotDims.WF S1x32x4096 S4096x11008 S1x32x11008 [2] [0] [0, 1] [1] [] []

variable [Facts₀]

def dot_S1x32x4096_S4096x11008_S1x32x11008_2_0_01_1_n_n : DotDims S1x32x4096 S4096x11008 S1x32x11008 where
  lhsContracting := [2]
  rhsContracting := [0]
  lhsNonContracting := [0, 1]
  rhsNonContracting := [1]
  lhsBatch := []
  rhsBatch := []
  wf := dot_S1x32x4096_S4096x11008_S1x32x11008_2_0_01_1_n_n_wf

class Facts : Prop extends Facts₀ where

variable [Facts]
-- ==== Proof.BodyIdeal.lean ====
/-
  The body of the quantized-linear kernel, run once on whole staging buffers.

  One call of the body reads, for each of the 32 groups g of 128 input features, a 32×128 slice of the activations,
  a 128×512 slice of the integer weights, and row g of the zero points and of the scales, and finally the bias row;
  it stores one 32×512 tile. This module names the rectangles of those reads, writes the stored tile as the
  composition of the body's arithmetic steps applied to those reads, and proves that the body, run on buffers
  holding given contents, leaves the inputs as they were and the output buffer holding that tile.
-/
import proofs.«150210_j59425167507986_2_alg».proof.Proof.Gen.KernelIdeal.Skeleton
import proofs.«150210_j59425167507986_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## The rectangles the body reads and writes -/

/-- Columns 128·g … 128·g+127 of the 32×4096 activations: group g's slice. -/
abbrev rX (g : Fin 32) : Rect S32x4096 := Rect.unit (s := S32x4096) (k0_off1 (BitVec.ofNat 32 g.val)) S32x128.size (k0_off1_inb g)
/-- Rows 128·g … 128·g+127 of the 4096×512 weight tile: group g's slice. -/
abbrev rQ (g : Fin 32) : Rect S4096x512 := Rect.unit (s := S4096x512) (k0_off2 (BitVec.ofNat 32 g.val)) S128x512.size (k0_off2_inb g)
theorem rZ_inb (g : Fin 32) : ∀ a, (![g.val, 0] : Fin 2 → Nat) a + S1x512.size a ≤ S32x512.size a := by
  intro a; have := g.isLt
  match a with
  | ⟨0, _⟩ => show g.val + 1 ≤ 32; omega
  | ⟨1, _⟩ => show 0 + 512 ≤ 512; omega
/-- Row g of a 32×512 tile (zero points, scales). -/
abbrev rZ (g : Fin 32) : Rect S32x512 := Rect.unit (s := S32x512) ![g.val, 0] S1x512.size (rZ_inb g)
/-- The whole 1×512 bias tile. -/
abbrev rB : Rect S1x512 := Rect.unit (s := S1x512) ![0, 0] S1x512.size inb_S1x512_S1x512_0_0
/-- The whole 32×512 output tile. -/
abbrev rO : Rect S32x512 := Rect.unit (s := S32x512) ![0, 0] S32x512.size inb_S32x512_S32x512_0_0

/-- Group g's reads. -/
abbrev xg (X0 : Vec F S32x4096 .f32) (g : Fin 32) : Vec F S32x128 .f32 := View.ld X0 (rX g)
abbrev qg (X1 : Vec F S4096x512 .i32) (g : Fin 32) : Vec F S128x512 .i32 := View.ld X1 (rQ g)
abbrev zg (X2 : Vec F S32x512 .i32) (g : Fin 32) : Vec F S1x512 .i32 := View.ld X2 (rZ g)
abbrev sg (X3 : Vec F S32x512 .f32) (g : Fin 32) : Vec F S1x512 .f32 := View.ld X3 (rZ g)

/-! ## The stored tile, as the body's steps composed

The running sum after each stretch of the body (a stretch handles one and a half groups), then the bias added. -/

def acc1 (X0 : Vec F S32x4096 .f32) (X1 : Vec F S4096x512 .i32) (X2 : Vec F S32x512 .i32) (X3 : Vec F S32x512 .f32) : FVec F S32x512 .f32 := k0_pay2 (xg X0 0) (qg X1 0) (zg X2 0) (sg X3 0)
def acc2 (X0 : Vec F S32x4096 .f32) (X1 : Vec F S4096x512 .i32) (X2 : Vec F S32x512 .i32) (X3 : Vec F S32x512 .f32) : FVec F S32x512 .f32 := k0_pay6 (acc1 X0 X1 X2 X3) (k0_pay4 (xg X0 1)) (k0_pay5 (xg X0 1)) (qg X1 1) (zg X2 1) (sg X3 1)
def acc3 (X0 : Vec F S32x4096 .f32) (X1 : Vec F S4096x512 .i32) (X2 : Vec F S32x512 .i32) (X3 : Vec F S32x512 .f32) : FVec F S32x512 .f32 := k0_pay9 (acc2 X0 X1 X2 X3) (k0_pay7 (sg X3 2)) (k0_pay8 (xg X0 2) (qg X1 2) (zg X2 2)) (xg X0 3) (qg X1 3) (zg X2 3) (sg X3 3)
def acc4 (X0 : Vec F S32x4096 .f32) (X1 : Vec F S4096x512 .i32) (X2 : Vec F S32x512 .i32) (X3 : Vec F S32x512 .f32) : FVec F S32x512 .f32 := k0_pay13 (acc3 X0 X1 X2 X3) (k0_pay11 (xg X0 4)) (k0_pay12 (xg X0 4)) (qg X1 4) (zg X2 4) (sg X3 4)
def acc5 (X0 : Vec F S32x4096 .f32) (X1 : Vec F S4096x512 .i32) (X2 : Vec F S32x512 .i32) (X3 : Vec F S32x512 .f32) : FVec F S32x512 .f32 := k0_pay16 (acc4 X0 X1 X2 X3) (k0_pay14 (sg X3 5)) (k0_pay15 (xg X0 5) (qg X1 5) (zg X2 5)) (xg X0 6) (qg X1 6) (zg X2 6) (sg X3 6)
def acc6 (X0 : Vec F S32x4096 .f32) (X1 : Vec F S4096x512 .i32) (X2 : Vec F S32x512 .i32) (X3 : Vec F S32x512 .f32) : FVec F S32x512 .f32 := k0_pay20 (acc5 X0 X1 X2 X3) (k0_pay18 (xg X0 7)) (k0_pay19 (xg X0 7)) (qg X1 7) (zg X2 7) (sg X3 7)
def acc7 (X0 : Vec F S32x4096 .f32) (X1 : Vec F S4096x512 .i32) (X2 : Vec F S32x512 .i32) (X3 : Vec F S32x512 .f32) : FVec F S32x512 .f32 := k0_pay23 (acc6 X0 X1 X2 X3) (k0_pay21 (sg X3 8)) (k0_pay22 (xg X0 8) (qg X1 8) (zg X2 8)) (xg X0 9) (qg X1 9) (zg X2 9) (sg X3 9)
def acc8 (X0 : Vec F S32x4096 .f32) (X1 : Vec F S4096x512 .i32) (X2 : Vec F S32x512 .i32) (X3 : Vec F S32x512 .f32) : FVec F S32x512 .f32 := k0_pay27 (acc7 X0 X1 X2 X3) (k0_pay25 (xg X0 10)) (k0_pay26 (xg X0 10)) (qg X1 10) (zg X2 10) (sg X3 10)
def acc9 (X0 : Vec F S32x4096 .f32) (X1 : Vec F S4096x512 .i32) (X2 : Vec F S32x512 .i32) (X3 : Vec F S32x512 .f32) : FVec F S32x512 .f32 := k0_pay30 (acc8 X0 X1 X2 X3) (k0_pay28 (sg X3 11)) (k0_pay29 (xg X0 11) (qg X1 11) (zg X2 11)) (xg X0 12) (qg X1 12) (zg X2 12) (sg X3 12)
def acc10 (X0 : Vec F S32x4096 .f32) (X1 : Vec F S4096x512 .i32) (X2 : Vec F S32x512 .i32) (X3 : Vec F S32x512 .f32) : FVec F S32x512 .f32 := k0_pay34 (acc9 X0 X1 X2 X3) (k0_pay32 (xg X0 13)) (k0_pay33 (xg X0 13)) (qg X1 13) (zg X2 13) (sg X3 13)
def acc11 (X0 : Vec F S32x4096 .f32) (X1 : Vec F S4096x512 .i32) (X2 : Vec F S32x512 .i32) (X3 : Vec F S32x512 .f32) : FVec F S32x512 .f32 := k0_pay37 (acc10 X0 X1 X2 X3) (k0_pay35 (sg X3 14)) (k0_pay36 (xg X0 14) (qg X1 14) (zg X2 14)) (xg X0 15) (qg X1 15) (zg X2 15) (sg X3 15)
def acc12 (X0 : Vec F S32x4096 .f32) (X1 : Vec F S4096x512 .i32) (X2 : Vec F S32x512 .i32) (X3 : Vec F S32x512 .f32) : FVec F S32x512 .f32 := k0_pay41 (acc11 X0 X1 X2 X3) (k0_pay39 (xg X0 16)) (k0_pay40 (xg X0 16)) (qg X1 16) (zg X2 16) (sg X3 16)
def acc13 (X0 : Vec F S32x4096 .f32) (X1 : Vec F S4096x512 .i32) (X2 : Vec F S32x512 .i32) (X3 : Vec F S32x512 .f32) : FVec F S32x512 .f32 := k0_pay44 (acc12 X0 X1 X2 X3) (k0_pay42 (sg X3 17)) (k0_pay43 (xg X0 17) (qg X1 17) (zg X2 17)) (xg X0 18) (qg X1 18) (zg X2 18) (sg X3 18)
def acc14 (X0 : Vec F S32x4096 .f32) (X1 : Vec F S4096x512 .i32) (X2 : Vec F S32x512 .i32) (X3 : Vec F S32x512 .f32) : FVec F S32x512 .f32 := k0_pay48 (acc13 X0 X1 X2 X3) (k0_pay46 (xg X0 19)) (k0_pay47 (xg X0 19)) (qg X1 19) (zg X2 19) (sg X3 19)
def acc15 (X0 : Vec F S32x4096 .f32) (X1 : Vec F S4096x512 .i32) (X2 : Vec F S32x512 .i32) (X3 : Vec F S32x512 .f32) : FVec F S32x512 .f32 := k0_pay51 (acc14 X0 X1 X2 X3) (k0_pay49 (sg X3 20)) (k0_pay50 (xg X0 20) (qg X1 20) (zg X2 20)) (xg X0 21) (qg X1 21) (zg X2 21) (sg X3 21)
def acc16 (X0 : Vec F S32x4096 .f32) (X1 : Vec F S4096x512 .i32) (X2 : Vec F S32x512 .i32) (X3 : Vec F S32x512 .f32) : FVec F S32x512 .f32 := k0_pay55 (acc15 X0 X1 X2 X3) (k0_pay53 (xg X0 22)) (k0_pay54 (xg X0 22)) (qg X1 22) (zg X2 22) (sg X3 22)
def acc17 (X0 : Vec F S32x4096 .f32) (X1 : Vec F S4096x512 .i32) (X2 : Vec F S32x512 .i32) (X3 : Vec F S32x512 .f32) : FVec F S32x512 .f32 := k0_pay58 (acc16 X0 X1 X2 X3) (k0_pay56 (sg X3 23)) (k0_pay57 (xg X0 23) (qg X1 23) (zg X2 23)) (xg X0 24) (qg X1 24) (zg X2 24) (sg X3 24)
def acc18 (X0 : Vec F S32x4096 .f32) (X1 : Vec F S4096x512 .i32) (X2 : Vec F S32x512 .i32) (X3 : Vec F S32x512 .f32) : FVec F S32x512 .f32 := k0_pay62 (acc17 X0 X1 X2 X3) (k0_pay60 (xg X0 25)) (k0_pay61 (xg X0 25)) (qg X1 25) (zg X2 25) (sg X3 25)
def acc19 (X0 : Vec F S32x4096 .f32) (X1 : Vec F S4096x512 .i32) (X2 : Vec F S32x512 .i32) (X3 : Vec F S32x512 .f32) : FVec F S32x512 .f32 := k0_pay65 (acc18 X0 X1 X2 X3) (k0_pay63 (sg X3 26)) (k0_pay64 (xg X0 26) (qg X1 26) (zg X2 26)) (xg X0 27) (qg X1 27) (zg X2 27) (sg X3 27)
def acc20 (X0 : Vec F S32x4096 .f32) (X1 : Vec F S4096x512 .i32) (X2 : Vec F S32x512 .i32) (X3 : Vec F S32x512 .f32) : FVec F S32x512 .f32 := k0_pay69 (acc19 X0 X1 X2 X3) (k0_pay67 (xg X0 28)) (k0_pay68 (xg X0 28)) (qg X1 28) (zg X2 28) (sg X3 28)
def acc21 (X0 : Vec F S32x4096 .f32) (X1 : Vec F S4096x512 .i32) (X2 : Vec F S32x512 .i32) (X3 : Vec F S32x512 .f32) : FVec F S32x512 .f32 := k0_pay72 (acc20 X0 X1 X2 X3) (k0_pay70 (sg X3 29)) (k0_pay71 (xg X0 29) (qg X1 29) (zg X2 29)) (xg X0 30) (qg X1 30) (zg X2 30) (sg X3 30)
def outPay (X0 : Vec F S32x4096 .f32) (X1 : Vec F S4096x512 .i32) (X2 : Vec F S32x512 .i32) (X3 : Vec F S32x512 .f32) (X4 : Vec F S1x512 .f32) : FVec F S32x512 .f32 := k0_pay1 (acc21 X0 X1 X2 X3) (k0_pay74 (xg X0 31)) (k0_pay75 (xg X0 31)) (qg X1 31) (zg X2 31) (sg X3 31) (View.ld X4 rB)

/-- What the output buffer holds after the body: its one store, of the whole tile. -/
def out (X0 : Vec F S32x4096 .f32) (X1 : Vec F S4096x512 .i32) (X2 : Vec F S32x512 .i32) (X3 : Vec F S32x512 .f32) (X4 : Vec F S1x512 .f32) : Vec F S32x512 .f32 :=
  View.canon [⟨rO, outPay X0 X1 X2 X3 X4⟩]

/-- The store covers the tile. -/
theorem cover (p0 : Vec F S32x512 .f32) (y : S32x512.Idx) :
    ∃ pc ∈ ([⟨rO, p0⟩] : List (View.Piece (Elt F) S32x512 .f32)), y ∈ pc.1.set :=
  View.cover_of_tiled [⟨rO, p0⟩] S32x512.size (by rfl) y

/-! ## The body's triple -/

set_option maxHeartbeats 4000000 in
/-- The body on whole staging memrefs — the five inputs' at given contents, the output's at anything — runs to the
    continuation with the inputs' as they were and the output's at `out` of the inputs'. -/
theorem sound_kernel (c : Dev nD) (E : Set ℕ) (i : grid0.Coords)
    (arg1 : Memref sig .tc .vmem S32x4096 .f32) (harg1 : arg1.IsWhole) (arg2 : Memref sig .tc .vmem S4096x512 .i32) (harg2 : arg2.IsWhole)
    (arg3 : Memref sig .tc .vmem S32x512 .i32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S32x512 .f32) (harg6 : arg6.IsWhole)
    (X0 : Vec F S32x4096 .f32) (X1 : Vec F S4096x512 .i32) (X2 : Vec F S32x512 .i32) (X3 : Vec F S32x512 .f32) (X4 : Vec F S1x512 .f32) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ (∃ d, owns (c : Thread nD τ) arg6 fullShare d)
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare X4
            ∗ owns (c : Thread nD τ) arg6 fullShare (out X0 X1 X2 X3 X4)) -∗ K ⟨⟩))
      ⊢ wp frame (wpE (defs₀ (F := F)) Variants.none c none) E (cc0__qlinear_kernel i arg1 harg1 arg2 harg2 arg3 harg3 arg4 harg4 arg5 harg5 arg6 harg6) K := by
  simp only [cc0__qlinear_kernel_eq_skeleton]; unfold cc0__qlinear_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover _)

end Cert.KernelIdeal.Body

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibRowRead.lean ====
/-
  Reading row-wise operations of a two-dimensional array index by index.

  A sum over the second axis of an [a, b] array, taken by the accelerator's lane reduction or by the host's
  reduction, is at row p the sum over k < b of the array at (p, k). A vector [a] cast to the column [a, 1] reads at
  (p, 0) the vector at p. Two arrays of one shape laid side by side along the second axis (or one above the other
  along the first) read, in the first piece's range, the first piece, and past it the second piece shifted back.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Lib.RowRead

open Idealize.ShloMosaic Idealize.ShloMosaic.ValueIdx

variable {α : Type}

/-- The source index of a reduction over the second axis: row p, coordinate k. -/
theorem lift_row {a b : ℕ} (h : (⟨2, ![a, b]⟩ : Shape).Reduces [(1 : Fin 2)] ⟨1, ![a]⟩) (p : Fin a) (k : Fin b) :
    h.lift (ix1 p) k = ix2 p k := by
  funext c; apply Fin.ext
  match c with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- The accelerator's lane sum at row p. -/
theorem lane_sum {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec FTy.f32.bits) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's row sum at row p: the initial value plus the row's sum. -/
theorem host_row_sum {a b : ℕ} {u : Shape} (x : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (fun z => init (Shape.Idx.first hu) + z) (Finset.sum_congr rfl fun k _ => congrArg x (lift_row h p k))))

/-- A vector cast to a column. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Two [a, b] arrays side by side: in the first b columns, the first. -/
theorem concat_cols_left {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.castAdd b k)) = x (ix2 p k) :=
  concatenate_ofFn_apply (t := ⟨2, ![a, b + b]⟩) (s₁ := ⟨2, ![a, b]⟩) (1 : Fin 2) (N := 2) ![x, y] h rfl b rfl (ix2 p (Fin.castAdd b k))
    (0 : Fin 2) (Nat.div_eq_of_lt k.isLt) (ix2 p k) (Nat.mod_eq_of_lt k.isLt).symm
    (fun c hc => by match c with | ⟨0, _⟩ => rfl | ⟨1, _⟩ => exact absurd rfl hc)

/-- … and in the last b columns, the second. -/
theorem concat_cols_right {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.natAdd b k)) = y (ix2 p k) :=
  concatenate_ofFn_apply (t := ⟨2, ![a, b + b]⟩) (s₁ := ⟨2, ![a, b]⟩) (1 : Fin 2) (N := 2) ![x, y] h rfl b rfl (ix2 p (Fin.natAdd b k))
    (1 : Fin 2) (by show (b + k.val) / b = 1; have := k.isLt; rw [Nat.add_div_left _ (by omega), Nat.div_eq_of_lt k.isLt])
    (ix2 p k) (by show k.val = (b + k.val) % b; rw [Nat.add_mod_left, Nat.mod_eq_of_lt k.isLt])
    (fun c hc => by match c with | ⟨0, _⟩ => rfl | ⟨1, _⟩ => exact absurd rfl hc)

/-- Two [a, b] arrays one above the other: in the first a rows, the first. -/
theorem concat_rows_top {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.castAdd a p) k) = x (ix2 p k) :=
  concatenate_ofFn_apply (t := ⟨2, ![a + a, b]⟩) (s₁ := ⟨2, ![a, b]⟩) (0 : Fin 2) (N := 2) ![x, y] h rfl a rfl (ix2 (Fin.castAdd a p) k)
    (0 : Fin 2) (Nat.div_eq_of_lt p.isLt) (ix2 p k) (Nat.mod_eq_of_lt p.isLt).symm
    (fun c hc => by match c with | ⟨0, _⟩ => exact absurd rfl hc | ⟨1, _⟩ => rfl)

/-- … and in the last a rows, the second. -/
theorem concat_rows_bottom {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.natAdd a p) k) = y (ix2 p k) :=
  concatenate_ofFn_apply (t := ⟨2, ![a + a, b]⟩) (s₁ := ⟨2, ![a, b]⟩) (0 : Fin 2) (N := 2) ![x, y] h rfl a rfl (ix2 (Fin.natAdd a p) k)
    (1 : Fin 2) (by show (a + p.val) / a = 1; have := p.isLt; rw [Nat.add_div_left _ (by omega), Nat.div_eq_of_lt p.isLt])
    (ix2 p k) (by show p.val = (a + p.val) % a; rw [Nat.add_mod_left, Nat.mod_eq_of_lt p.isLt])
    (fun c hc => by match c with | ⟨0, _⟩ => exact absurd rfl hc | ⟨1, _⟩ => rfl)

end Cert.Lib.RowRead

end
-- ==== Proof.LibRecipOneHot.lean ====
/-
  General facts on the extended reals and on small vector operations, used where a program multiplies by a
  reciprocal and another divides, and where a one-hot matrix is built from an integer equality test.

  * A square is nonnegative and the root of a nonnegative number is nonnegative, infinities included; so a norm with a
    positive guard added is positive, hence not zero.
  * For y ≠ 0, a · (1 / y) = a / y (both are a · y⁻¹; the f32 pattern 0x3F800000 is the number one).
  * The one-hot entry "label = class" as an extended real, read from the equality test either as an unsigned number
    (label on the left) or widened to 32 bits and read signed (class on the left).
  * A column [a, 1] broadcast along the second axis to [a, b] reads, at (p, k), the column at (p, 0).
-/
import Idealize.ShloMosaic.PureOps.Ideal.Laws
import Idealize.ShloMosaic.Lib.IdealHost
import Idealize.ShloMosaic.Lib.ValueIdx
import Idealize.ShloMosaic.Lib.Pipeline.Value

noncomputable section

namespace Cert.Lib.RecipOneHot

open Idealize.ShloMosaic Idealize.ShloMosaic.ValueIdx

/-- A square is nonnegative on the extended reals. -/
theorem mul_self_nonneg' (a : EReal) : 0 ≤ a * a := by
  induction a using EReal.rec with
  | bot => simp
  | top => simp
  | coe r => rw [← EReal.coe_mul]; exact EReal.coe_nonneg.mpr (mul_self_nonneg r)

/-- The root of a nonnegative extended real is nonnegative. -/
theorem sqrt_nonneg' {a : EReal} (h : 0 ≤ a) : 0 ≤ Ideal.sqrt a := by
  induction a using EReal.rec with
  | bot => simp at h
  | top => simp
  | coe r =>
    have hr : ¬ r < 0 := not_lt.mpr (EReal.coe_nonneg.mp h)
    rw [Ideal.sqrt_coe, if_neg hr]
    exact EReal.coe_nonneg.mpr (Real.sqrt_nonneg r)

/-- The root of a sum of squares plus a positive guard is positive. -/
theorem guarded_norm_pos {ι : Type} (s : Finset ι) (a : ι → EReal) {g : EReal} (hg : 0 < g) :
    0 < Ideal.sqrt (∑ d ∈ s, a d * a d) + g :=
  lt_of_lt_of_le hg (le_add_of_nonneg_left (sqrt_nonneg' (Finset.sum_nonneg fun d _ => mul_self_nonneg' (a d))))

/-- Multiplying by the reciprocal of a nonzero number is dividing by it. -/
theorem mul_recip (a y : EReal) (hy : y ≠ 0) : a * Ideal.div (Ideal.ofBits .f32 0x3F800000#32) y = Ideal.div a y := by
  rw [Ideal.ofBits_one_f32]
  unfold Ideal.div
  rw [if_neg hy, if_neg hy, one_mul]

/-- The one-hot entry: 1 when the label is the class, else 0. -/
def hot (y : BitVec 32) (c : ℕ) : EReal := if y = BitVec.ofNat 32 c then 1 else 0

/-- Equality test read as an unsigned number, the label on the left. -/
theorem hot_unsigned (y : BitVec 32) (c : ℕ) :
    FloatOps.uitofp (F := Ideal) .f32 (IntOp.cmpi .eq y (BitVec.ofNat 32 c)) = hot y c := by
  unfold hot
  show (((IntOp.cmpi .eq y (BitVec.ofNat 32 c)).toNat : ℝ) : EReal) = _
  by_cases h : y = BitVec.ofNat 32 c
  · simp [IntOp.cmpi, h]
  · simp [IntOp.cmpi, h]

/-- Equality test widened to 32 bits and read as a signed number, the class on the left. -/
theorem hot_signed (y : BitVec 32) (c : ℕ) :
    FloatOps.sitofp (F := Ideal) .f32 ((IntOp.cmpi .eq (BitVec.ofNat 32 c) y).setWidth 32) = hot y c := by
  unfold hot
  show ((((IntOp.cmpi .eq (BitVec.ofNat 32 c) y).setWidth 32).toInt : ℝ) : EReal) = _
  by_cases h : y = BitVec.ofNat 32 c
  · subst h; simp [IntOp.cmpi]
  · have hb : (BitVec.ofNat 32 c == y) = false := beq_eq_false_iff_ne.mpr fun e => h e.symm
    simp [IntOp.cmpi, h, hb]

/-- A column [a, 1] broadcast along the second axis reads, at (p, k), the column at (p, 0). -/
theorem broadcastTo_col_apply {α : Type} {a b : ℕ} (x : (⟨2, ![a, 1]⟩ : Shape).Idx → α)
    (h : (⟨2, ![a, 1]⟩ : Shape).Broadcasts ⟨2, ![a, b]⟩) (p : Fin a) (k : Fin b) :
    broadcastTo ⟨2, ![a, b]⟩ x h (ix2 p k) = x (ix2 p (0 : Fin 1)) :=
  broadcastTo_apply x h _ _ (fun c => by
    match c with
    | ⟨0, _⟩ =>
      show p.val = if a = 1 then 0 else p.val
      split
      · have := p.isLt; omega
      · rfl
    | ⟨1, _⟩ => show (0 : ℕ) = if (1 : ℕ) = 1 then 0 else k.val; rw [if_pos rfl])

end Cert.Lib.RecipOneHot

end
-- ==== Proof.OutValue.lean ====
/-
  What one call of the body stores, read at an entry of the tile, over the extended reals.

  Group g's term of the running sum is (x_g · W_g − rowsum(x_g) ⊗ z_g) ∘ s_g, where x_g is the 32×128 slice of the
  activations, W_g the 128×512 slice of the integer weights, z_g and s_g row g of the zero points and scales; the
  stored tile is the sum of the 32 terms plus the bias row. Entry (p, c) of it depends on the weights, zero points,
  scales and bias only through their column c.
-/
import proofs.«150210_j59425167507986_2_alg».proof.Proof.BodyIdeal
import proofs.«150210_j59425167507986_2_alg».proof.Proof.LibPlainDot
import proofs.«150210_j59425167507986_2_alg».proof.Proof.LibRowRead
import proofs.«150210_j59425167507986_2_alg».proof.Proof.LibRecipOneHot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.OutValue

open Idealize.ShloMosaic Idealize.ShloMosaic.ValueIdx Idealize.ShloMosaic.Pipeline
open Cert.KernelIdeal Cert.KernelIdeal.Gen Cert.KernelIdeal.Body

variable {F : FTy → Type} [FloatOps F]

/-- One group's term as the body computes it from its four reads. -/
def contrib (x : Vec F S32x128 .f32) (q : Vec F S128x512 .i32) (z : Vec F S1x512 .i32) (s : Vec F S1x512 .f32) : FVec F S32x512 .f32 :=
  mulf (subf (matmul dot_S32x128_S128x512_S32x512_1_0_0_1_n_n none (truncf .bf16 (shapeCast S32x128 x shapeCasts_S32x128_S32x128) bitsLt_bf16_f32)
          (sitofp .bf16 q) (constant S32x512 .f32 0x00000000#32))
        (mulf (broadcastTo S32x512 (shapeCast S32x1 (multiReduction .add [1] S32 (shapeCast S32x128 x shapeCasts_S32x128_S32x128) 0x00000000#32 reduces_S32x128_S32 (.inl rfl) rfl) shapeCasts_S32_S32x1) broadcasts_S32x1_S32x512)
          (broadcastTo S32x512 (shapeCast S1x512 (sitofp .f32 (shapeCast S512 z shapeCasts_S1x512_S512 : IVec S512 32)) shapeCasts_S512_S1x512) broadcasts_S1x512_S32x512)))
    (broadcastTo S32x512 (shapeCast S1x512 (shapeCast S512 s shapeCasts_S1x512_S512 : FVec F S512 .f32) shapeCasts_S512_S1x512) broadcasts_S1x512_S32x512)

/-- Group g's term, of the five buffers. -/
abbrev C (X0 : Vec F S32x4096 .f32) (X1 : Vec F S4096x512 .i32) (X2 : Vec F S32x512 .i32) (X3 : Vec F S32x512 .f32) (g : Fin 32) : FVec F S32x512 .f32 :=
  contrib (xg X0 g) (qg X1 g) (zg X2 g) (sg X3 g)

/-- The stored tile is the 32 terms added up in order from zero, then the bias row. -/
theorem outPay_eq (X0 : Vec F S32x4096 .f32) (X1 : Vec F S4096x512 .i32) (X2 : Vec F S32x512 .i32) (X3 : Vec F S32x512 .f32) (X4 : Vec F S1x512 .f32) :
    outPay X0 X1 X2 X3 X4 = addf (addf (addf (addf (addf (addf (addf (addf (addf (addf (addf (addf (addf (addf (addf (addf (addf (addf (addf (addf (addf (addf (addf (addf (addf (addf (addf (addf (addf (addf (addf (addf (addf (broadcast S32x512 (Scalar.ofBits .f32 0x00000000#32) : FVec F S32x512 .f32) (C X0 X1 X2 X3 0)) (C X0 X1 X2 X3 1)) (C X0 X1 X2 X3 2)) (C X0 X1 X2 X3 3)) (C X0 X1 X2 X3 4)) (C X0 X1 X2 X3 5)) (C X0 X1 X2 X3 6)) (C X0 X1 X2 X3 7)) (C X0 X1 X2 X3 8)) (C X0 X1 X2 X3 9)) (C X0 X1 X2 X3 10)) (C X0 X1 X2 X3 11)) (C X0 X1 X2 X3 12)) (C X0 X1 X2 X3 13)) (C X0 X1 X2 X3 14)) (C X0 X1 X2 X3 15)) (C X0 X1 X2 X3 16)) (C X0 X1 X2 X3 17)) (C X0 X1 X2 X3 18)) (C X0 X1 X2 X3 19)) (C X0 X1 X2 X3 20)) (C X0 X1 X2 X3 21)) (C X0 X1 X2 X3 22)) (C X0 X1 X2 X3 23)) (C X0 X1 X2 X3 24)) (C X0 X1 X2 X3 25)) (C X0 X1 X2 X3 26)) (C X0 X1 X2 X3 27)) (C X0 X1 X2 X3 28)) (C X0 X1 X2 X3 29)) (C X0 X1 X2 X3 30)) (C X0 X1 X2 X3 31))
      (broadcastTo S32x512 (shapeCast S1x512 (View.ld X4 rB) shapeCasts_S1x512_S1x512 : FVec F S1x512 .f32) broadcasts_S1x512_S32x512) := by
  rfl

/-! ## Read at an entry, over the extended reals -/

theorem dot_eq : dot_S32x128_S128x512_S32x512_1_0_0_1_n_n = DotDims.plain 32 128 512 := rfl

/-- One group's term at entry (p, c): (Σₖ x(p,k)·W(k,c) − (Σₖ x(p,k))·z(c)) · s(c). -/
theorem contrib_apply (x : Vec Ideal S32x128 .f32) (q : Vec Ideal S128x512 .i32) (z : Vec Ideal S1x512 .i32) (s : Vec Ideal S1x512 .f32)
    (p : Fin 32) (c : Fin 512) :
    contrib x q z s (ix2 p c)
      = ((∑ k : Fin 128, x (ix2 p k) * (((BitVec.toInt (q (ix2 k c)) : ℤ) : ℝ) : EReal))
          - (∑ k : Fin 128, x (ix2 p k)) * (((BitVec.toInt (z (ix2 (0 : Fin 1) c)) : ℤ) : ℝ) : EReal)) * s (ix2 (0 : Fin 1) c) := by
  unfold contrib
  rw [mulf_apply, subf_apply, mulf_apply]
  rw [dot_eq]
  rw [Cert.Lib.PlainDot.matmul_zero, Cert.Lib.PlainDot.mm_apply]
  rw [Cert.Lib.RecipOneHot.broadcastTo_col_apply, broadcastTo_1b_ab_apply, broadcastTo_1b_ab_apply]
  rw [Cert.Lib.RowRead.shapeCast_a_a1_apply, shapeCast_a_1a_apply, shapeCast_a_1a_apply]
  have hR : multiReduction (F := Ideal) .add [1] S32 (shapeCast S32x128 x shapeCasts_S32x128_S32x128 : FVec Ideal S32x128 .f32) 0x00000000#32 reduces_S32x128_S32 (.inl rfl) rfl (ix1 p)
      = ∑ k : Fin 128, x (ix2 p k) := by
    refine (Cert.Lib.RowRead.lane_sum (a := 32) (b := 128) _ reduces_S32x128_S32 _ _ p).trans ?_
    rw [shapeCast_self]
  rw [hR, shapeCast_self]
  rw [sitofp_apply, shapeCast_1a_a_apply, shapeCast_1a_a_apply]
  rfl

/-- Input feature 128·g + k: the k-th feature of group g. -/
def gk (g : Fin 32) (k : Fin 128) : Fin 4096 := ⟨128 * g.val + k.val, by have := g.isLt; have := k.isLt; omega⟩

theorem rX_idx (g : Fin 32) (p : Fin 32) (k : Fin 128) : (rX g).idx (ix2 p k) = ix2 p (gk g k) := by
  funext a; apply Fin.ext
  have h := k0_off1_eq g
  match a with
  | ⟨0, _⟩ => show (k0_off1 (BitVec.ofNat 32 g.val)) 0 + 1 * p.val = p.val; rw [h]; show 0 + 1 * p.val = p.val; omega
  | ⟨1, _⟩ => show (k0_off1 (BitVec.ofNat 32 g.val)) 1 + 1 * k.val = 128 * g.val + k.val; rw [h]; show 128 * g.val + 1 * k.val = _; omega

theorem rQ_idx (g : Fin 32) (k : Fin 128) (c : Fin 512) : (rQ g).idx (ix2 k c) = ix2 (gk g k) c := by
  funext a; apply Fin.ext
  have h := k0_off2_eq g
  match a with
  | ⟨0, _⟩ => show (k0_off2 (BitVec.ofNat 32 g.val)) 0 + 1 * k.val = 128 * g.val + k.val; rw [h]; show 128 * g.val + 1 * k.val = _; omega
  | ⟨1, _⟩ => show (k0_off2 (BitVec.ofNat 32 g.val)) 1 + 1 * c.val = c.val; rw [h]; show 0 + 1 * c.val = c.val; omega

theorem rZ_idx (g : Fin 32) (c : Fin 512) : (rZ g).idx (ix2 (0 : Fin 1) c) = ix2 g c := by
  funext a; apply Fin.ext
  match a with
  | ⟨0, _⟩ => show g.val + 1 * 0 = g.val; omega
  | ⟨1, _⟩ => show 0 + 1 * c.val = c.val; omega

/-- The tile's entry as a function of one row of activations and one column of weights, zero points, scales, bias. -/
def tileAt (x : Fin 4096 → EReal) (w : Fin 4096 → ℤ) (z : Fin 32 → ℤ) (s : Fin 32 → EReal) (b : EReal) : EReal :=
  (∑ g : Fin 32, ((∑ k : Fin 128, x (gk g k) * ((w (gk g k) : ℝ) : EReal)) - (∑ k : Fin 128, x (gk g k)) * ((z g : ℝ) : EReal)) * s g) + b

/-- Thirty-two terms added up in order from zero are their sum. -/
theorem nested32 (z0 : EReal) (f : Fin 32 → EReal) (h0 : z0 = 0) : ((((((((((((((((((((((((((((((((z0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + f 31) = ∑ g, f g := by
  subst h0
  simp only [Fin.sum_univ_castSucc, Fin.sum_univ_zero]
  rfl

theorem out_apply (X0 : Vec Ideal S32x4096 .f32) (X1 : Vec Ideal S4096x512 .i32) (X2 : Vec Ideal S32x512 .i32) (X3 : Vec Ideal S32x512 .f32)
    (X4 : Vec Ideal S1x512 .f32) (p : Fin 32) (c : Fin 512) :
    out X0 X1 X2 X3 X4 (ix2 p c)
      = tileAt (fun i => X0 (ix2 p i)) (fun i => BitVec.toInt (X1 (ix2 i c))) (fun g => BitVec.toInt (X2 (ix2 g c)))
          (fun g => X3 (ix2 g c)) (X4 (ix2 (0 : Fin 1) c)) := by
  have hz : (![0, 0] : Fin 2 → Nat) = fun _ => 0 := funext fun a => by fin_cases a <;> rfl
  unfold out
  rw [View.canon_unit_zero hz, outPay_eq]
  simp only [addf_apply]
  refine (congrArg (· + _) (nested32 _ (fun g => C X0 X1 X2 X3 g (ix2 p c)) (Ideal.ofBits_zero_f32))).trans ?_
  unfold tileAt
  congr 1
  · refine Finset.sum_congr rfl fun g _ => ?_
    show contrib (xg X0 g) (qg X1 g) (zg X2 g) (sg X3 g) (ix2 p c) = _
    rw [contrib_apply]
    have e1 : ∀ k : Fin 128, xg X0 g (ix2 p k) = X0 (ix2 p (gk g k)) := fun k => congrArg X0 (rX_idx g p k)
    have e2 : ∀ k : Fin 128, qg X1 g (ix2 k c) = X1 (ix2 (gk g k) c) := fun k => congrArg X1 (rQ_idx g k c)
    have e3 : zg X2 g (ix2 (0 : Fin 1) c) = X2 (ix2 g c) := congrArg X2 (rZ_idx g c)
    have e4 : sg X3 g (ix2 (0 : Fin 1) c) = X3 (ix2 g c) := congrArg X3 (rZ_idx g c)
    simp only [e1, e2, e3, e4]
  · rw [broadcastTo_1b_ab_apply]
    exact (congrFun (shapeCast_self _ _) _).trans (congrFun (View.ld_unit_zero hz _ X4) _)

theorem tileAt_congr {x : Fin 4096 → EReal} {w w' : Fin 4096 → ℤ} {z z' : Fin 32 → ℤ} {s s' : Fin 32 → EReal} {b b' : EReal}
    (hw : w = w') (hz : z = z') (hs : s = s') (hb : b = b') : tileAt x w z s b = tileAt x w' z' s' b' := by
  subst hw hz hs hb; rfl

/-- Entry (p, c) of the tile depends on the weights, zero points, scales and bias through their column c only. -/
theorem out_col_congr (X0 : Vec Ideal S32x4096 .f32) (A1 A1' : Vec Ideal S4096x512 .i32) (A2 A2' : Vec Ideal S32x512 .i32)
    (A3 A3' : Vec Ideal S32x512 .f32) (A4 A4' : Vec Ideal S1x512 .f32) (p : Fin 32) (c : Fin 512)
    (h1 : ∀ r : Fin 4096, A1 (ix2 r c) = A1' (ix2 r c)) (h2 : ∀ g : Fin 32, A2 (ix2 g c) = A2' (ix2 g c))
    (h3 : ∀ g : Fin 32, A3 (ix2 g c) = A3' (ix2 g c)) (h4 : A4 (ix2 (0 : Fin 1) c) = A4' (ix2 (0 : Fin 1) c)) :
    out X0 A1 A2 A3 A4 (ix2 p c) = out X0 A1' A2' A3' A4' (ix2 p c) := by
  rw [out_apply, out_apply]
  exact tileAt_congr (funext fun i => congrArg BitVec.toInt (h1 i)) (funext fun g => congrArg BitVec.toInt (h2 g)) (funext h3) h4

end Cert.KernelIdeal.OutValue

end
-- ==== Proof.LibFillMoved.lean ====
/-
  A general lemma about a pipelined window whose blocks may overhang its array.

  A staging buffer just fetched at a point holds the array's block on the part of the buffer the transfer moves and
  whatever was there before on the rest. Two such buffers, whatever their rests, agree at every index the transfer
  moves, and hold there the fetched block's entry. A computation that reads the buffer only at moved indices therefore
  does not depend on the words past the array's end.
-/
import Idealize.ShloMosaic.Lib.Pipeline

namespace Cert.Lib.FillMoved

open Idealize.ShloMosaic

/-- Two fillings of a block agree wherever the transfer moves the block. -/
theorem fill_eq_of_moved {sig : RefSig} {G : Pipeline.Grid} (w : Pipeline.Window sig G) {α : Type} (i : G.Coords)
    (d d' : w.block.Idx → α) (g : (w.xblock i).Idx → α) (j : w.block.Idx) (h : w.moved i j = true) :
    w.fill i d g j = w.fill i d' g j := by
  unfold Pipeline.Window.fill; rw [dif_pos h, dif_pos h]

/-- At a moved index a filled block holds the fetched block's entry. -/
theorem fill_apply_of_moved {sig : RefSig} {G : Pipeline.Grid} (w : Pipeline.Window sig G) {α : Type} (i : G.Coords)
    (d : w.block.Idx → α) (g : (w.xblock i).Idx → α) (j : w.block.Idx) (h : w.moved i j = true) :
    w.fill i d g j = g fun a => ⟨(j a).val, (w.moved_iff i j).mp h a⟩ := by
  unfold Pipeline.Window.fill; rw [dif_pos h]

end Cert.Lib.FillMoved
-- ==== Proof.FrameIdeal.lean ====
/-
  The idealized kernel's run, with the output array named.

  The grid's 22 points each take a 512-column block of the weights, zero points, scales, bias and output; the last
  block holds only 256 columns of the 11008, and a staging buffer fetched there holds words nothing names on its last
  256 columns. Since entry (p, c) of the stored tile depends on those four inputs only through their column c, the
  columns of the tile inside the array are determined, and those are the ones written back.
-/
import proofs.«150210_j59425167507986_2_alg».proof.Proof.BodyIdeal
import proofs.«150210_j59425167507986_2_alg».proof.Proof.OutValue
import proofs.«150210_j59425167507986_2_alg».proof.Proof.LibFillMoved

set_option maxRecDepth 16384

noncomputable section

namespace Cert.KernelIdeal.FrameProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Body Cert.KernelIdeal.OutValue
open Idealize.ShloMosaic.ValueIdx
open Cert.Lib.FillMoved (fill_eq_of_moved)

local notation "𝕄" => MT nD τ sig Unit (Elt Ideal) ℕ (UR sig nD τ) ℕ

variable (m : (ℓ : Loc nD τ sig) → Buf (Elt Ideal) ℓ) (ρ : Dev nD → PrngReg)

/-! ## The schedule's index maps and block extents, decided over the grid -/

theorem idx_facts : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) :=
  (by decide +kernel : ∀ t : Fin grid0.N, _)

theorem xsize_facts : ∀ t : Fin cfg0.N,
    (win0_1.xsize (grid0.coords t) 0 = 4096 ∧ win0_1.xsize (grid0.coords t) 1 = min 512 (11008 - 512 * t.val))
    ∧ (win0_2.xsize (grid0.coords t) 0 = 32 ∧ win0_2.xsize (grid0.coords t) 1 = min 512 (11008 - 512 * t.val))
    ∧ (win0_3.xsize (grid0.coords t) 0 = 32 ∧ win0_3.xsize (grid0.coords t) 1 = min 512 (11008 - 512 * t.val))
    ∧ (win0_4.xsize (grid0.coords t) 0 = 1 ∧ win0_4.xsize (grid0.coords t) 1 = min 512 (11008 - 512 * t.val))
    ∧ (win0_5.xsize (grid0.coords t) 0 = 32 ∧ win0_5.xsize (grid0.coords t) 1 = min 512 (11008 - 512 * t.val)) :=
  (by decide +kernel : ∀ t : Fin grid0.N, _)

/-- A column of a 512-wide block is moved at point t iff it lies inside the array. -/
theorem moved1 (t : Fin cfg0.N) (r : Fin 4096) (cc : Fin 512) (h : cc.val < min 512 (11008 - 512 * t.val)) :
    win0_1.moved (grid0.coords t) (ix2 r cc) = true :=
  (win0_1.moved_iff _ _).mpr fun a => by
    match a with
    | ⟨0, _⟩ => show r.val < win0_1.xsize (grid0.coords t) 0; rw [(xsize_facts t).1.1]; exact r.isLt
    | ⟨1, _⟩ => show cc.val < win0_1.xsize (grid0.coords t) 1; rw [(xsize_facts t).1.2]; exact h
theorem moved2 (t : Fin cfg0.N) (r : Fin 32) (cc : Fin 512) (h : cc.val < min 512 (11008 - 512 * t.val)) :
    win0_2.moved (grid0.coords t) (ix2 r cc) = true :=
  (win0_2.moved_iff _ _).mpr fun a => by
    match a with
    | ⟨0, _⟩ => show r.val < win0_2.xsize (grid0.coords t) 0; rw [(xsize_facts t).2.1.1]; exact r.isLt
    | ⟨1, _⟩ => show cc.val < win0_2.xsize (grid0.coords t) 1; rw [(xsize_facts t).2.1.2]; exact h
theorem moved3 (t : Fin cfg0.N) (r : Fin 32) (cc : Fin 512) (h : cc.val < min 512 (11008 - 512 * t.val)) :
    win0_3.moved (grid0.coords t) (ix2 r cc) = true :=
  (win0_3.moved_iff _ _).mpr fun a => by
    match a with
    | ⟨0, _⟩ => show r.val < win0_3.xsize (grid0.coords t) 0; rw [(xsize_facts t).2.2.1.1]; exact r.isLt
    | ⟨1, _⟩ => show cc.val < win0_3.xsize (grid0.coords t) 1; rw [(xsize_facts t).2.2.1.2]; exact h
theorem moved4 (t : Fin cfg0.N) (r : Fin 1) (cc : Fin 512) (h : cc.val < min 512 (11008 - 512 * t.val)) :
    win0_4.moved (grid0.coords t) (ix2 r cc) = true :=
  (win0_4.moved_iff _ _).mpr fun a => by
    match a with
    | ⟨0, _⟩ => show r.val < win0_4.xsize (grid0.coords t) 0; rw [(xsize_facts t).2.2.2.1.1]; exact r.isLt
    | ⟨1, _⟩ => show cc.val < win0_4.xsize (grid0.coords t) 1; rw [(xsize_facts t).2.2.2.1.2]; exact h

/-! ## The proof data -/

/-- A clipped input's buffer after the body: its block, filled out past the array's end with a word nothing reads. -/
def X1a (c : Dev nD) (t : Fin cfg0.N) : Vec Ideal S4096x512 .i32 := win0_1.fill (grid0.coords t) (fun _ => Classical.arbitrary _) (iblk m c 1 t)
def X2a (c : Dev nD) (t : Fin cfg0.N) : Vec Ideal S32x512 .i32 := win0_2.fill (grid0.coords t) (fun _ => Classical.arbitrary _) (iblk m c 2 t)
def X3a (c : Dev nD) (t : Fin cfg0.N) : Vec Ideal S32x512 .f32 := win0_3.fill (grid0.coords t) (fun _ => Classical.arbitrary _) (iblk m c 3 t)
def X4a (c : Dev nD) (t : Fin cfg0.N) : Vec Ideal S1x512 .f32 := win0_4.fill (grid0.coords t) (fun _ => Classical.arbitrary _) (iblk m c 4 t)

/-- The arrays as the region finds them; after the body each input buffer at its block and the output buffer at the
    tile computed from them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X1a m c t
    | ⟨2, _⟩ => X2a m c t
    | ⟨3, _⟩ => X3a m c t
    | ⟨4, _⟩ => X4a m c t
    | ⟨5, _⟩ => out (iblk m c 0 t) (X1a m c t) (X2a m c t) (X3a m c t) (X4a m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_5 (c : Dev nD) (t : Fin cfg0.N) :
    (dats m 0 c).after 5 t = out (iblk m c 0 t) (X1a m c t) (X2a m c t) (X3a m c t) (X4a m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl

/-! ## The written-back columns do not depend on the unnamed words -/

/-- The point's output coordinates, as a row and a column of the 32×512 tile. -/
theorem xinj5 (t : Fin cfg0.N) (j : (win0_5.xblock (grid0.coords t)).Idx) :
    ∃ (p : Fin 32) (cc : Fin 512), cc.val < min 512 (11008 - 512 * t.val) ∧ p.val = (j 0).val ∧ cc.val = (j 1).val
      ∧ win0_5.xinj (grid0.coords t) j = ix2 p cc := by
  have hj0 : (j 0).val < 32 := by
    have h : (j 0).val < win0_5.xsize (grid0.coords t) 0 := (j 0).isLt
    rw [(xsize_facts t).2.2.2.2.1] at h; exact h
  have hj1 : (j 1).val < min 512 (11008 - 512 * t.val) := by
    have h : (j 1).val < win0_5.xsize (grid0.coords t) 1 := (j 1).isLt
    rw [(xsize_facts t).2.2.2.2.2] at h; exact h
  have hj1' : (j 1).val < 512 := lt_of_lt_of_le hj1 (min_le_left _ _)
  refine ⟨⟨(j 0).val, hj0⟩, ⟨(j 1).val, hj1'⟩, hj1, rfl, rfl, ?_⟩
  funext a; apply Fin.ext
  match a with
  | ⟨0, _⟩ => rfl
  | ⟨1, _⟩ => rfl

set_option maxHeartbeats 400000 in
/-- The tile's columns inside the array are the same whatever fills the input buffers past the array's end. -/
theorem cut_out_eq (c : Dev nD) (t : Fin cfg0.N) (X0 : Vec Ideal S32x4096 .f32) (d1 d1' : Vec Ideal S4096x512 .i32) (d2 d2' : Vec Ideal S32x512 .i32)
    (d3 d3' : Vec Ideal S32x512 .f32) (d4 d4' : Vec Ideal S1x512 .f32) :
    win0_5.cut (grid0.coords t) (out X0 (win0_1.fill (grid0.coords t) d1 (iblk m c 1 t)) (win0_2.fill (grid0.coords t) d2 (iblk m c 2 t))
        (win0_3.fill (grid0.coords t) d3 (iblk m c 3 t)) (win0_4.fill (grid0.coords t) d4 (iblk m c 4 t)))
      = win0_5.cut (grid0.coords t) (out X0 (win0_1.fill (grid0.coords t) d1' (iblk m c 1 t)) (win0_2.fill (grid0.coords t) d2' (iblk m c 2 t))
        (win0_3.fill (grid0.coords t) d3' (iblk m c 3 t)) (win0_4.fill (grid0.coords t) d4' (iblk m c 4 t))) := by
  funext j
  obtain ⟨p, cc, hcc, -, -, e⟩ := xinj5 t j
  refine (congrArg (out X0 _ _ _ _) e).trans (Eq.trans ?_ (congrArg (out X0 _ _ _ _) e.symm))
  exact out_col_congr X0 _ _ _ _ _ _ _ _ p cc
    (fun r => fill_eq_of_moved win0_1 _ d1 d1' _ _ (moved1 t r cc hcc))
    (fun g => fill_eq_of_moved win0_2 _ d2 d2' _ _ (moved2 t g cc hcc))
    (fun g => fill_eq_of_moved win0_3 _ d3 d3' _ _ (moved3 t g cc hcc))
    (fill_eq_of_moved win0_4 _ d4 d4' _ _ (moved4 t 0 cc hcc))

end Cert.KernelIdeal.FrameProof

end
-- ==== Proof.RunIdeal.lean ====
/-
  The idealized kernel's run: the body obligation at every grid point, the launch, and the frame.
-/
import proofs.«150210_j59425167507986_2_alg».proof.Proof.FrameIdeal

set_option maxRecDepth 16384

noncomputable section

namespace Cert.KernelIdeal.FrameProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Body Cert.KernelIdeal.OutValue
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the resident buffer as it was; each clipped buffer stated on the columns inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t)))))

set_option maxHeartbeats 1000000 in
/-- The body at any point: the input buffers are handed back as found; the output buffer holds the tile of what was
    found, whose columns inside the array are those of the tile the proof data names. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl, after0_0, after0_5]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel (F := Ideal) c Set.univ (grid0.coords t) _ _ _ _ _ _ _ _ _ _ _ _ (iblk m c 0 t) (win0_1.fill (grid0.coords t) d1 (iblk m c 1 t))
    (win0_2.fill (grid0.coords t) d2 (iblk m c 2 t)) (win0_3.fill (grid0.coords t) d3 (iblk m c 3 t)) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  have h1 : win0_1.cut (grid0.coords t) ((dats m 0 c).after 1 t) = iblk m c 1 t := win0_1.cut_fill _ _ _
  have h2 : win0_2.cut (grid0.coords t) ((dats m 0 c).after 2 t) = iblk m c 2 t := win0_2.cut_fill _ _ _
  have h3 : win0_3.cut (grid0.coords t) ((dats m 0 c).after 3 t) = iblk m c 3 t := win0_3.cut_fill _ _ _
  have h4 : win0_4.cut (grid0.coords t) ((dats m 0 c).after 4 t) = iblk m c 4 t := win0_4.cut_fill _ _ _
  rw [h1, h2, h3, h4]
  isplitl [H1]; · iexists d1; iexact H1
  isplitl [H2]; · iexists d2; iexact H2
  isplitl [H3]; · iexists d3; iexact H3
  isplitl [H4]; · iexists d4; iexact H4
  unfold X1a X2a X3a X4a
  iexists (out (iblk m c 0 t) (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t)))
  rw [win0_5.fill_congr_cut (grid0.coords t) (cut_out_eq m c t (iblk m c 0 t) d1 _ d2 _ d3 _ d4 _)]
  iexact H5

/-- The library's body obligation at every point. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- The run: every weakly fair execution terminates with every array of the region at what the write-backs leave and
    every buffer that bypasses the region at what the line after the region computes. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the five arguments end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.FrameProof

end
-- ==== Proof.FinalIdeal.lean ====
/-
  The output array after the run: entry (p, o) is the tile formula of row p of the activations and column o of the
  weights, zero points, scales and bias. Point t writes back columns 512·t … of the array, the last point only the
  256 columns that exist; every column is written back by the point ⌊o / 512⌋.
-/
import proofs.«150210_j59425167507986_2_alg».proof.Proof.FrameIdeal

set_option maxRecDepth 16384

noncomputable section

namespace Cert.KernelIdeal.FrameProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Body Cert.KernelIdeal.OutValue
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

theorem tileAt_congr5 {x x' : Fin 4096 → EReal} {w w' : Fin 4096 → ℤ} {z z' : Fin 32 → ℤ} {s s' : Fin 32 → EReal} {b b' : EReal}
    (hx : x = x') (hw : w = w') (hz : z = z') (hs : s = s') (hb : b = b') : tileAt x w z s b = tileAt x' w' z' s' b' := by
  subst hx hw hz hs hb; rfl

/-! ## The blocks, read at an entry of the arrays -/

theorem iblk0_apply (c : Dev nD) (t : Fin cfg0.N) (p : Fin 32) (k : Fin 4096) :
    (iblk m c 0 t : Vec Ideal S32x4096 .f32) (ix2 p k) = (V m c main_v0 : S32x4096.Idx → EReal) (ix2 p k) := by
  unfold iblk; rw [View.read_apply]
  show V m c main_v0 _ = V m c main_v0 _
  refine congrArg (V m c main_v0 : S32x4096.Idx → EReal) (funext fun a => Fin.ext ?_)
  match a with
  | ⟨0, _⟩ => show win0_0.index t 0 * 32 + 1 * p.val = p.val; rw [(idx_facts t).1.1]; omega
  | ⟨1, _⟩ => show win0_0.index t 1 * 4096 + 1 * k.val = k.val; rw [(idx_facts t).1.2]; omega

theorem fill1_apply (c : Dev nD) (t : Fin cfg0.N) (d) (k : Fin 4096) (cc : Fin 512) (col : Fin 11008)
    (hcc : cc.val < min 512 (11008 - 512 * t.val)) (hcol : col.val = 512 * t.val + cc.val) :
    win0_1.fill (grid0.coords t) d (iblk m c 1 t) (ix2 k cc) = (V m c main_arg1 : S4096x11008.Idx → BitVec 32) (ix2 k col) := by
  unfold Pipeline.Window.fill
  rw [dif_pos (moved1 t k cc hcc)]
  unfold iblk; rw [View.read_apply]
  show V m c main_arg1 _ = V m c main_arg1 _
  refine congrArg (V m c main_arg1 : S4096x11008.Idx → BitVec 32) (funext fun a => Fin.ext ?_)
  match a with
  | ⟨0, _⟩ => show win0_1.index t 0 * 4096 + 1 * k.val = k.val; rw [(idx_facts t).2.1.1]; omega
  | ⟨1, _⟩ => show win0_1.index t 1 * 512 + 1 * cc.val = col.val; rw [(idx_facts t).2.1.2, hcol]; omega

theorem fill2_apply (c : Dev nD) (t : Fin cfg0.N) (d) (g : Fin 32) (cc : Fin 512) (col : Fin 11008)
    (hcc : cc.val < min 512 (11008 - 512 * t.val)) (hcol : col.val = 512 * t.val + cc.val) :
    win0_2.fill (grid0.coords t) d (iblk m c 2 t) (ix2 g cc) = (V m c main_arg2 : S32x11008.Idx → BitVec 32) (ix2 g col) := by
  unfold Pipeline.Window.fill
  rw [dif_pos (moved2 t g cc hcc)]
  unfold iblk; rw [View.read_apply]
  show V m c main_arg2 _ = V m c main_arg2 _
  refine congrArg (V m c main_arg2 : S32x11008.Idx → BitVec 32) (funext fun a => Fin.ext ?_)
  match a with
  | ⟨0, _⟩ => show win0_2.index t 0 * 32 + 1 * g.val = g.val; rw [(idx_facts t).2.2.1.1]; omega
  | ⟨1, _⟩ => show win0_2.index t 1 * 512 + 1 * cc.val = col.val; rw [(idx_facts t).2.2.1.2, hcol]; omega

theorem fill3_apply (c : Dev nD) (t : Fin cfg0.N) (d) (g : Fin 32) (cc : Fin 512) (col : Fin 11008)
    (hcc : cc.val < min 512 (11008 - 512 * t.val)) (hcol : col.val = 512 * t.val + cc.val) :
    win0_3.fill (grid0.coords t) d (iblk m c 3 t) (ix2 g cc) = (V m c main_arg3 : S32x11008.Idx → EReal) (ix2 g col) := by
  unfold Pipeline.Window.fill
  rw [dif_pos (moved3 t g cc hcc)]
  unfold iblk; rw [View.read_apply]
  show V m c main_arg3 _ = V m c main_arg3 _
  refine congrArg (V m c main_arg3 : S32x11008.Idx → EReal) (funext fun a => Fin.ext ?_)
  match a with
  | ⟨0, _⟩ => show win0_3.index t 0 * 32 + 1 * g.val = g.val; rw [(idx_facts t).2.2.2.1.1]; omega
  | ⟨1, _⟩ => show win0_3.index t 1 * 512 + 1 * cc.val = col.val; rw [(idx_facts t).2.2.2.1.2, hcol]; omega

theorem fill4_apply (c : Dev nD) (t : Fin cfg0.N) (d) (cc : Fin 512) (col : Fin 11008)
    (hcc : cc.val < min 512 (11008 - 512 * t.val)) (hcol : col.val = 512 * t.val + cc.val) :
    win0_4.fill (grid0.coords t) d (iblk m c 4 t) (ix2 (0 : Fin 1) cc) = (V m c main_v1 : S1x11008.Idx → EReal) (ix2 (0 : Fin 1) col) := by
  unfold Pipeline.Window.fill
  rw [dif_pos (moved4 t 0 cc hcc)]
  unfold iblk; rw [View.read_apply]
  show V m c main_v1 _ = V m c main_v1 _
  refine congrArg (V m c main_v1 : S1x11008.Idx → EReal) (funext fun a => Fin.ext ?_)
  match a with
  | ⟨0, _⟩ => show win0_4.index t 0 * 1 + 1 * 0 = 0; rw [(idx_facts t).2.2.2.2.1.1]
  | ⟨1, _⟩ => show win0_4.index t 1 * 512 + 1 * cc.val = col.val; rw [(idx_facts t).2.2.2.2.1.2, hcol]; omega

/-! ## The output array -/

/-- The output array: entry (p, o) from row p of the reshaped activations and column o of the other four. -/
def Garr (c : Dev nD) : Buf (Elt Ideal) ((c : Thread nD τ).loc main_v2) := fun (j : S32x11008.Idx) =>
  tileAt (fun k => (V m c main_v0 : S32x4096.Idx → EReal) (ix2 (j 0) k))
    (fun k => BitVec.toInt ((V m c main_arg1 : S4096x11008.Idx → BitVec 32) (ix2 k (j 1))))
    (fun g => BitVec.toInt ((V m c main_arg2 : S32x11008.Idx → BitVec 32) (ix2 g (j 1))))
    (fun g => (V m c main_arg3 : S32x11008.Idx → EReal) (ix2 g (j 1)))
    ((V m c main_v1 : S1x11008.Idx → EReal) (ix2 (0 : Fin 1) (j 1)))

set_option maxHeartbeats 1000000 in
/-- What point t writes back is block t of that array. -/
theorem flushed_eq (c : Dev nD) (t : Fin cfg0.N) (hf : (cfg0.win 5).flush t = true) :
    (dats m 0 c).flushed 5 t = ((cfg0.win 5).blk t).view.read (Elt Ideal) (Garr m c) := by
  show win0_5.cut (grid0.coords t) ((dats m 0 c).after 5 t) = _
  rw [after0_5]
  funext j
  obtain ⟨p, cc, hcc, hp, hc, e⟩ := xinj5 t j
  have hcol : 512 * t.val + cc.val < 11008 := by omega
  have er : ((cfg0.win 5).blk t).view.read (Elt Ideal) (Garr m c) j = Garr m c (ix2 p (⟨512 * t.val + cc.val, hcol⟩ : Fin 11008)) := by
    rw [View.read_apply]
    show Garr m c _ = Garr m c _
    refine congrArg (Garr m c) (funext fun a => Fin.ext ?_)
    match a with
    | ⟨0, _⟩ => show win0_5.index t 0 * 32 + 1 * (j 0).val = p.val; rw [(idx_facts t).2.2.2.2.2.1, hp]; omega
    | ⟨1, _⟩ => show win0_5.index t 1 * 512 + 1 * (j 1).val = 512 * t.val + cc.val; rw [(idx_facts t).2.2.2.2.2.2, hc]; omega
  rw [er]
  refine (congrArg (out _ _ _ _ _) e).trans ?_
  rw [out_apply]
  unfold Garr X1a X2a X3a X4a
  exact tileAt_congr5 (funext fun k => iblk0_apply m c t p k)
    (funext fun k => congrArg BitVec.toInt (fill1_apply m c t _ k cc _ hcc rfl))
    (funext fun g => congrArg BitVec.toInt (fill2_apply m c t _ g cc _ hcc rfl))
    (funext fun g => fill3_apply m c t _ g cc _ hcc rfl)
    (fill4_apply m c t _ cc _ hcc rfl)

/-- Every column o is written back by point ⌊o / 512⌋; so the array ends holding `Garr`. -/
theorem final5 (c : Dev nD) : (dats m 0 c).arrAt 5 cfg0.N = Garr m c :=
  (dats m 0 c).arrAt_eq_of_cover 5 (Garr m c) (flushed_eq m c) fun i => by
    have h0 : (i 0 : Nat) < 32 := (i 0).isLt
    have h1 : (i 1 : Nat) < 11008 := (i 1).isLt
    have ht : (i 1 : Nat) / 512 < cfg0.N := lt_of_lt_of_eq (by omega) N_0.symm
    obtain ⟨t, hteq⟩ : ∃ t : Fin cfg0.N, t.val = (i 1 : Nat) / 512 := ⟨⟨_, ht⟩, rfl⟩
    refine ⟨t, flush0_5 t, ?_⟩
    show i ∈ ((View.whole main_v2).slice (win0_5.rect t)).set
    rw [View.set_slice_whole, Rect.mem_set_unit]
    intro a
    match a with
    | ⟨0, _⟩ =>
      show win0_5.index t 0 * 32 ≤ (i 0 : Nat) ∧ (i 0 : Nat) < win0_5.index t 0 * 32 + win0_5.xsize (grid0.coords t) 0
      rw [(idx_facts t).2.2.2.2.2.1, (xsize_facts t).2.2.2.2.1]; omega
    | ⟨1, _⟩ =>
      show win0_5.index t 1 * 512 ≤ (i 1 : Nat) ∧ (i 1 : Nat) < win0_5.index t 1 * 512 + win0_5.xsize (grid0.coords t) 1
      rw [(idx_facts t).2.2.2.2.2.2, (xsize_facts t).2.2.2.2.2, hteq]
      omega

end Cert.KernelIdeal.FrameProof

end
-- ==== Proof.Algebra.lean ====
/-
  The law that joins the two programs, over the reals.

  The kernel adds up, group by group, (x_g · W_g − rowsum(x_g) · z_g) · s_g; the reference multiplies each activation
  by its dequantized weight (W − z_g) · s_g and sums over all 4096 input features. The two agree by distributivity,
  which on the extended reals needs the activations and the scales to be real numbers (the integer weights and zero
  points always are).
-/
import proofs.«150210_j59425167507986_2_alg».proof.Proof.OutValue

noncomputable section

namespace Cert.KernelIdeal.Algebra

open Cert.KernelIdeal.OutValue

/-- A finite sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The group of input feature i. -/
def grp (i : Fin 4096) : Fin 32 := ⟨i.val / 128, by have := i.isLt; omega⟩

theorem grp_gk (g : Fin 32) (k : Fin 128) : grp (gk g k) = g := by
  apply Fin.ext; show (128 * g.val + k.val) / 128 = g.val; have := k.isLt; omega

/-- A sum over the 4096 features, taken group by group. -/
theorem sum_groups (f : Fin 4096 → ℝ) : ∑ i : Fin 4096, f i = ∑ g : Fin 32, ∑ k : Fin 128, f (gk g k) := by
  rw [← Finset.sum_product', Finset.univ_product_univ]
  refine (Fintype.sum_equiv (finProdFinEquiv (m := 32) (n := 128)) _ _ fun gkp => ?_).symm
  exact congrArg f (Fin.ext (by rw [finProdFinEquiv_apply_val]; show 128 * gkp.1.val + gkp.2.val = gkp.2.val + 128 * gkp.1.val; omega))

/-- Over the reals: the kernel's grouped form is the reference's dequantize-then-contract form. -/
theorem real_law (x : Fin 4096 → ℝ) (w : Fin 4096 → ℤ) (z : Fin 32 → ℤ) (s : Fin 32 → ℝ) :
    ∑ g : Fin 32, ((∑ k : Fin 128, x (gk g k) * (w (gk g k) : ℝ)) - (∑ k : Fin 128, x (gk g k)) * (z g : ℝ)) * s g
      = ∑ i : Fin 4096, x i * (((w i : ℝ) - (z (grp i) : ℝ)) * s (grp i)) := by
  rw [sum_groups]
  refine Finset.sum_congr rfl fun g _ => ?_
  rw [Finset.sum_mul, ← Finset.sum_sub_distrib, Finset.sum_mul]
  refine Finset.sum_congr rfl fun k _ => ?_
  rw [grp_gk]; ring

/-- On the extended reals, for real activations and scales. -/
theorem tile_law (x : Fin 4096 → EReal) (w : Fin 4096 → ℤ) (z : Fin 32 → ℤ) (s : Fin 32 → EReal) (b : EReal)
    (hx : ∀ i, ∃ r : ℝ, x i = r) (hs : ∀ g, ∃ r : ℝ, s g = r) :
    tileAt x w z s b = (∑ i : Fin 4096, x i * ((((w i : ℝ) : EReal) - ((z (grp i) : ℝ) : EReal)) * s (grp i))) + b := by
  choose xr hxr using hx
  choose sr hsr using hs
  unfold tileAt
  congr 1
  simp only [hxr, hsr, ← EReal.coe_mul, ← EReal.coe_sub, coe_sum]
  exact congrArg _ (real_law xr w z sr)

end Cert.KernelIdeal.Algebra

end
-- ==== Proof.RefValue.lean ====
/-
  The reference read at an entry: result (0, p, o) is the sum over the 4096 input features k of the activation
  x(0, p, k) times the dequantized weight (W(k, o) − z(k / 128, o)) · s(k / 128, o), plus the bias b(o).
-/
import proofs.«150210_j59425167507986_2_alg».proof.Proof.Gen.ReferenceIdeal.Read
import proofs.«150210_j59425167507986_2_alg».proof.Proof.Algebra

set_option maxRecDepth 16384

noncomputable section

namespace Cert.ReferenceIdeal.RefValue

open Idealize.ShloMosaic Idealize.ShloMosaic.ValueIdx
open Cert.ReferenceIdeal Cert.ReferenceIdeal.Read Cert.KernelIdeal.Algebra

theorem ref_apply (x0 : (⟨S1x32x4096, .f32⟩ : BufTy).Contents (Elt Ideal)) (x1 : (⟨S4096x11008, .i32⟩ : BufTy).Contents (Elt Ideal))
    (x2 : (⟨S32x11008, .i32⟩ : BufTy).Contents (Elt Ideal)) (x3 : (⟨S32x11008, .f32⟩ : BufTy).Contents (Elt Ideal))
    (x4 : (⟨S11008, .f32⟩ : BufTy).Contents (Elt Ideal)) (p : Fin 32) (o : Fin 11008) :
    val_main_v19 (F := Ideal) x0 x1 x2 x3 x4 (ix3 (0 : Fin 1) p o)
      = (∑ k : Fin 4096, x0 (ix3 (0 : Fin 1) p k) * ((((BitVec.toInt (x1 (ix2 k o)) : ℝ) : EReal) - ((BitVec.toInt (x2 (ix2 (grp k) o)) : ℝ) : EReal)) * x3 (ix2 (grp k) o)))
        + x4 (ix1 o) := by
  rw [val_main_v19_apply, val_main_v16_apply, val_main_v18_apply, val_main_v17_apply, val_main_v15_apply, val_main_v14_apply]
  show _ + _ = _
  congr 1
  · refine Finset.sum_congr rfl fun k _ => ?_
    rw [val_main_v13_apply, val_main_v12_apply, val_main_v11_apply, val_main_v10_apply, val_main_v7_apply, val_main_v1_apply, val_main_v0_apply,
      val_main_v6_apply, val_main_v5_apply, val_main_v4_apply, val_main_v9_apply, val_main_v8_apply, val_main_v3_apply, val_main_v2_apply]
    have hk := k.isLt
    have ho := o.isLt
    have e0 : lidx_main_v16 (ix3 (0 : Fin 1) p o) k = ix3 (0 : Fin 1) p k := by
      funext a; match a with | ⟨0, _⟩ => rfl | ⟨1, _⟩ => rfl | ⟨2, _⟩ => rfl
    have e1 : idx_main_v0 (idx_main_v11 (ridx_main_v16 (ix3 (0 : Fin 1) p o) k)) = ix2 k o := by
      funext a; apply Fin.ext
      match a with
      | ⟨0, _⟩ =>
        show (((k.val * 11008 + o.val) / 1409024 * 128 + (k.val * 11008 + o.val) / 11008 % 128) * 11008 + (k.val * 11008 + o.val) % 11008) / 11008 = k.val
        omega
      | ⟨1, _⟩ =>
        show (((k.val * 11008 + o.val) / 1409024 * 128 + (k.val * 11008 + o.val) / 11008 % 128) * 11008 + (k.val * 11008 + o.val) % 11008) % 11008 = o.val
        omega
    have e2 : idx_main_v4 (idx_main_v6 (idx_main_v11 (ridx_main_v16 (ix3 (0 : Fin 1) p o) k))) = ix2 (grp k) o := by
      funext a; apply Fin.ext
      match a with
      | ⟨0, _⟩ => show (k.val * 11008 + o.val) / 1409024 = k.val / 128; omega
      | ⟨1, _⟩ => show (k.val * 11008 + o.val) % 11008 = o.val; omega
    have e3 : idx_main_v8 (idx_main_v9 (idx_main_v11 (ridx_main_v16 (ix3 (0 : Fin 1) p o) k))) = ix2 (grp k) o := by
      funext a; apply Fin.ext
      match a with
      | ⟨0, _⟩ => show (k.val * 11008 + o.val) / 1409024 = k.val / 128; omega
      | ⟨1, _⟩ => show (k.val * 11008 + o.val) % 11008 = o.val; omega
    rw [e0, e1, e2, e3]
    rfl
  · have e4 : idx_main_v17 (idx_main_v18 (ix3 (0 : Fin 1) p o)) = ix1 o := by
      funext a; match a with | ⟨0, _⟩ => rfl
    rw [e4]; rfl

end Cert.ReferenceIdeal.RefValue

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«150210_j59425167507986_2_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.BodyBits.lean ====
/-
  The body of the quantized-linear kernel as printed at the word level, run once on whole staging buffers: it reads
  its five input buffers, stores one tile into the output buffer, and leaves the inputs as they were. Nothing is
  said here of what the stored tile holds.
-/
import proofs.«150210_j59425167507986_2_alg».proof.Proof.Gen.Kernel.Skeleton
import proofs.«150210_j59425167507986_2_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 4000000 in
/-- The body on whole staging memrefs — the five inputs' at given contents, the output's at anything — runs to the
    continuation with the inputs' as they were and the output's at some contents. -/
theorem kernelRun (c : Dev nD) (i : grid0.Coords)
    (arg1 : Memref sig .tc .vmem S32x4096 .f32) (harg1 : arg1.IsWhole) (arg2 : Memref sig .tc .vmem S4096x512 .i32) (harg2 : arg2.IsWhole)
    (arg3 : Memref sig .tc .vmem S32x512 .i32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S32x512 .f32) (harg6 : arg6.IsWhole)
    (X0 : Vec F S32x4096 .f32) (X1 : Vec F S4096x512 .i32) (X2 : Vec F S32x512 .i32) (X3 : Vec F S32x512 .f32) (X4 : Vec F S1x512 .f32) (E : Set ℕ) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4 ∗ (∃ d, owns (c : Thread nD τ) arg6 fullShare d)
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare X4
            ∗ (∃ d, owns (c : Thread nD τ) arg6 fullShare d)) -∗ K ⟨⟩))
      ⊢ wp frame (wpE (defs₀ (F := F)) Variants.none c none) E (cc0__qlinear_kernel i arg1 harg1 arg2 harg2 arg3 harg3 arg4 harg4 arg5 harg5 arg6 harg6) K := by
  simp only [cc0__qlinear_kernel_eq_skeleton]; unfold cc0__qlinear_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _, _; isplitr
  swap; · iexact H5
  ipureintro; rfl

end Cert.Kernel.Body

end
-- ==== Proof.FrameBits.lean ====
/-
  The word-level kernel's frame: its run terminates, faults nowhere and leaves the five arguments as they were.

  The region's grid has 22 points; the last block of the weights, zero points, scales, bias and of the output
  overhangs its array, so a fetched staging buffer holds the array's block on the columns inside the array and words
  nothing names past them. The body only needs its input buffers back as it found them; what it leaves in the
  output buffer is not named, so nothing is stated of the output array or of the result reshaped from it.
-/
import proofs.«150210_j59425167507986_2_alg».proof.Proof.BodyBits

set_option maxRecDepth 16384

noncomputable section

namespace Cert.Kernel.FrameProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window: what the body leaves in it is not named. -/
def forgets0 : Fin 6 → Bool := fun w => w.val == 5

/-- The proof data: the arrays as the region finds them; after the body each input buffer holds its block (filled
    out past the array's end with a word nothing reads), the output buffer contents nothing names. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

/-- What the body finds: the resident activations at their block, each other input just fetched. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- and what it returns: the resident buffer as it was; each clipped input's stated on the columns inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare d))

set_option maxHeartbeats 1000000 in
/-- The body at any point: each clipped input's buffer is handed back as found, which on the columns inside the array
    is its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl, after0_0]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (kernelRun (F := F) c (grid0.coords t) _ _ _ _ _ _ _ _ _ _ _ _ (iblk m c 0 t) (win0_1.fill (grid0.coords t) d1 (iblk m c 1 t))
    (win0_2.fill (grid0.coords t) d2 (iblk m c 2 t)) (win0_3.fill (grid0.coords t) d3 (iblk m c 3 t)) (win0_4.fill (grid0.coords t) d4 (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  have h1 : win0_1.cut (grid0.coords t) ((dats m 0 c).after 1 t) = iblk m c 1 t := win0_1.cut_fill _ _ _
  have h2 : win0_2.cut (grid0.coords t) ((dats m 0 c).after 2 t) = iblk m c 2 t := win0_2.cut_fill _ _ _
  have h3 : win0_3.cut (grid0.coords t) ((dats m 0 c).after 3 t) = iblk m c 3 t := win0_3.cut_fill _ _ _
  have h4 : win0_4.cut (grid0.coords t) ((dats m 0 c).after 4 t) = iblk m c 4 t := win0_4.cut_fill _ _ _
  rw [h1, h2, h3, h4]
  isplitl [H1]; · iexists d1; iexact H1
  isplitl [H2]; · iexists d2; iexact H2
  isplitl [H3]; · iexists d3; iexact H3
  isplitl [H4]; · iexists d4; iexact H4
  iexact H5

/-- The library's body obligation at every point, the output window's contents left unnamed. -/
theorem body_obligation (c : Dev nD) : BodyObligationLoose (dats (F := F) m 0 c) (defs₀ (F := F)) Variants.none () Set.univ forgets0 := fun t => by
  rw [bigSep_W0, bigSep_W0]
  exact sound_body m c t

/-- The one buffer the line after the region writes: the reshaped result. -/
def T0 : Finset (Ref sig .tc) := {main_v3}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- The run: every weakly fair execution terminates; every input array of the region is unchanged and every buffer
    that bypasses the region, other than the reshaped result, holds what it held when the region was entered. -/
theorem run_main : θ_run defs (onTc (τ := τ) (main (F := F))) (s₀ m ρ)
    (Pipeline.RDat.FramePostR (cfgs 0) (fun c => (dats m 0 c).toRForget forgets0) T0 (fun c b => V0 m c (Proc.devRef .tc b))) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the five arguments end as launched — the reshaped activations' source and the bias bypass the region and
    no later line writes them; the weights, zero points and scales are input arrays of the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
      (Eq.mp (congrFun (((dats m 0 c).toRForget forgets0).ArrAt_in 1 rfl _) _) ((h c).1 1)).trans ((A_eq m c 1).trans (V_main_arg1 m c)),
      (Eq.mp (congrFun (((dats m 0 c).toRForget forgets0).ArrAt_in 2 rfl _) _) ((h c).1 2)).trans ((A_eq m c 2).trans (V_main_arg2 m c)),
      (Eq.mp (congrFun (((dats m 0 c).toRForget forgets0).ArrAt_in 3 rfl _) _) ((h c).1 3)).trans ((A_eq m c 3).trans (V_main_arg3 m c)),
      ((h c).2 main_arg4 (Finset.mem_sdiff.mpr ⟨Pipeline.mem_restRefs_of main_arg4 (by decide) (by decide), by decide⟩)).trans (V_main_arg4 m c)⟩)
    (run_main m ρ)

end Cert.Kernel.FrameProof

end
-- ==== Proof.Claims.lean ====
/-
  The idealized kernel's result as a function of its arguments, and the five claims.

  The result (0, p, o) is the grouped form of the quantized product for row p of the activations and column o of the
  weights, zero points and scales, plus the bias; the reference's result is the dequantize-then-contract form. They are
  equal where the activations and scales are real numbers, which the precondition gives.
-/
import proofs.«150210_j59425167507986_2_alg».proof.Defs
import proofs.«150210_j59425167507986_2_alg».proof.Proof.RunIdeal
import proofs.«150210_j59425167507986_2_alg».proof.Proof.FinalIdeal
import proofs.«150210_j59425167507986_2_alg».proof.Proof.RefValue
import proofs.«150210_j59425167507986_2_alg».proof.Proof.LibFinite
import proofs.«150210_j59425167507986_2_alg».proof.Proof.FrameBits
import proofs.«150210_j59425167507986_2_alg».proof.Proof.Gen.Pre_finite_inputs
import proofs.«150210_j59425167507986_2_alg».proof.Proof.Gen.ReferenceIdeal
import Idealize.ShloMosaic.Lib.StableHlo.Run
import Idealize.ShloMosaic.Lib.ValueLayout

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.FrameProof Cert.KernelIdeal.Algebra
open Cert.KernelIdeal Cert.KernelIdeal.Gen Cert.KernelIdeal.Body Cert.KernelIdeal.OutValue
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The activations the region finds are the argument, its unit axis dropped; the bias row is the bias as one row. -/
theorem V_main_v0 (c : Dev nD) : (V m c main_v0 : S32x4096.Idx → EReal)
    = shapeCast S32x4096 (m ((c.tc : Thread nD τ).loc main_arg0) : S1x32x4096.Idx → EReal) shapeCasts_S1x32x4096_S32x4096 := by
  show StableHlo.after hostOps0 (fun b => m (c, b)) (Proc.devRef .tc main_v0) = _
  after_results; rfl
theorem V_main_v1 (c : Dev nD) : (V m c main_v1 : S1x11008.Idx → EReal)
    = shapeCast S1x11008 (m ((c.tc : Thread nD τ).loc main_arg4) : S11008.Idx → EReal) shapeCasts_S11008_S1x11008 := by
  show StableHlo.after hostOps0 (fun b => m (c, b)) (Proc.devRef .tc main_v1) = _
  after_results; rfl

/-- The result as a function of the five arguments. -/
def Gfin (a0 : S1x32x4096.Idx → EReal) (a1 : S4096x11008.Idx → BitVec 32) (a2 : S32x11008.Idx → BitVec 32) (a3 : S32x11008.Idx → EReal)
    (a4 : S11008.Idx → EReal) : S1x32x11008.Idx → EReal := fun i =>
  tileAt (fun k => a0 (ix3 (0 : Fin 1) (i 1) k)) (fun k => BitVec.toInt (a1 (ix2 k (i 2)))) (fun g => BitVec.toInt (a2 (ix2 g (i 2))))
    (fun g => a3 (ix2 g (i 2))) (a4 (ix1 (i 2)))

set_option maxHeartbeats 1000000 in
/-- The line after the region reshapes the output array into the result. -/
theorem tail_eq (c : Dev nD) : Pipeline.afterTail₀ cfgs (dats m) 0 (V0 m) [hostOps1] c main_v3
    = Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v2) = Garr m c :=
    (Pipeline.withArrays_arr spec0 launch0.win.arr_inj c _ _ 5).trans (final5 m c)
  funext i
  obtain ⟨u, p, o, rfl⟩ : ∃ (u : Fin 1) (p : Fin 32) (o : Fin 11008), i = ix3 u p o := ⟨i 0, i 1, i 2, eq_ix3 i⟩
  show shapeCast S1x32x11008 (Pipeline.withArrays (cfgs 0).spec c (V0 m c) (fun w => (dats m 0 c).arrAt w (cfgs 0).N) (Proc.tc.devRef main_v2) : S32x11008.Idx → EReal)
    shapeCasts_S32x11008_S1x32x11008 (ix3 u p o) = _
  rw [hw, shapeCast_ab_1ab_apply]
  unfold Garr Gfin
  refine tileAt_congr5 (funext fun k => ?_) ?_ ?_ ?_ ?_
  · rw [V_main_v0]; exact shapeCast_1ab_ab_apply _ _ p k
  · rw [V_main_arg1]
  · rw [V_main_arg2]
  · rw [V_main_arg3]
  · rw [V_main_v1]; exact shapeCast_a_1a_apply _ _ (0 : Fin 1) o

/-- The run: the result is `Gfin` of the arguments, which end as launched. -/
theorem run : θ_run defs (onTc (τ := τ) (main (F := Ideal))) ⟨m, fun _ => 0, ρ⟩ (fun r => ∀ c : Dev nD,
      r.2.mem ((c.tc : Thread nD τ).loc main_v3) = Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.ValueRun

/-! ## The two results are one function of the arguments -/

namespace Cert.Proof.Bridge

open Idealize.ShloMosaic Idealize.ShloMosaic.ValueIdx
open Cert.KernelIdeal.Algebra Cert.KernelIdeal.ValueRun Cert.Lib.Real
open Cert.KernelIdeal (S1x32x4096 S4096x11008 S32x11008 S11008)

/-- Under the precondition the activations and the scales are real numbers. -/
theorem real_of_pre [Cert.Pre_finite_inputs.Facts] (a0 : FVec Ideal Cert.Pre_finite_inputs.S1x32x4096 .f32) (a1 : IVec Cert.Pre_finite_inputs.S4096x11008 32)
    (a2 : IVec Cert.Pre_finite_inputs.S32x11008 32) (a3 : FVec Ideal Cert.Pre_finite_inputs.S32x11008 .f32) (a4 : FVec Ideal Cert.Pre_finite_inputs.S11008 .f32)
    (hpre : Cert.Pre_finite_inputs.fn (F := Ideal) a0 a1 a2 a3 a4 = fun _ => 1#1) : (∀ i, IsReal (a0 i)) ∧ (∀ i, IsReal (a3 i)) := by
  have h := congrFun hpre ValueIdx.ix0
  dsimp only [Cert.Pre_finite_inputs.fn] at h
  obtain ⟨h1, -⟩ := IntOp.andi_eq_one.mp h
  obtain ⟨h3, h7⟩ := IntOp.andi_eq_one.mp h1
  exact ⟨Cert.Lib.Finite.allReal_of_all_finite a0 _ _ _ h3, Cert.Lib.Finite.allReal_of_all_finite a3 _ _ _ h7⟩

/-- The reference's result is the kernel's function of the arguments, where activations and scales are real. -/
theorem ref_eq (a0 : S1x32x4096.Idx → EReal) (a1 : S4096x11008.Idx → BitVec 32) (a2 : S32x11008.Idx → BitVec 32) (a3 : S32x11008.Idx → EReal)
    (a4 : S11008.Idx → EReal) (hx : ∀ i, IsReal (a0 i)) (hs : ∀ i, IsReal (a3 i)) :
    Cert.ReferenceIdeal.Read.val_main_v19 (F := Ideal) a0 a1 a2 a3 a4 = Gfin a0 a1 a2 a3 a4 := by
  funext i
  obtain ⟨u, p, o, rfl⟩ : ∃ (u : Fin 1) (p : Fin 32) (o : Fin 11008), i = ix3 u p o := ⟨i 0, i 1, i 2, eq_ix3 i⟩
  obtain rfl : u = 0 := Subsingleton.elim _ _
  rw [Cert.ReferenceIdeal.RefValue.ref_apply]
  exact (tile_law (fun k => a0 (ix3 (0 : Fin 1) p k)) (fun k => BitVec.toInt (a1 (ix2 k o))) (fun g => BitVec.toInt (a2 (ix2 g o)))
    (fun g => a3 (ix2 g o)) (a4 (ix1 o)) (fun k => hx _) (fun g => hs _)).symm

end Cert.Proof.Bridge

/-! ## The claims -/

namespace Cert.Proof.Claims

open Idealize.ShloMosaic Idealize.SL.Sem

theorem frame_k : Cert.frame_Kernel := fun m ρ _ => Cert.Kernel.FrameProof.frame (F := Bits) m ρ
theorem frame_ki : Cert.frame_KernelIdeal := fun m ρ _ => Cert.KernelIdeal.FrameProof.frame m ρ
theorem frame_ri : Cert.frame_ReferenceIdeal := fun m ρ _ =>
  (θ_run Cert.ReferenceIdeal.defs _ _).mono (fun _ h c => (h c).2) (Cert.ReferenceIdeal.Value.run (F := Ideal) m ρ)

/-- Every rewrite of the ideal pass drops a narrowing to bf16 followed by the widening back, the identity on exact values. -/
theorem preserves : Cert.preserves_Kernel_KernelIdeal :=
  ⟨IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S32x128 .f32 .bf16,
    IdealRules.truncf_extf.statement Cert.KernelIdeal.S512 .f32 .bf16,
    IdealRules.truncf_extf.statement Cert.KernelIdeal.S1x512 .f32 .bf16⟩

theorem algebraic : Cert.algebraic_KernelIdeal_ReferenceIdeal := by
  intro m ρ m' ρ' hpre hagree
  refine ⟨fun c => Cert.KernelIdeal.ValueRun.Gfin
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1, (hagree c).2.2.2.2]
  obtain ⟨hx, hs⟩ := Cert.Proof.Bridge.real_of_pre _ _ _ _ _ (hpre c)
  exact Cert.Proof.Bridge.ref_eq _ _ _ _ _ hx hs

end Cert.Proof.Claims

end
-- ==== Proof.lean ====
/-
  A 4-bit-quantized linear layer: 32 activations rows of 4096 features against a 4096×11008 integer weight matrix
  with per-group (128 features) zero points and scales, plus a bias.

  The kernel pushes the zero point and the scale through the product: for each group g it forms
  (x_g · W_g − rowsum(x_g) ⊗ z_g) ∘ s_g on a 512-column tile and adds the 32 terms and the bias; the reference
  dequantizes every weight, (W − z_g) · s_g, and contracts over all 4096 features. Over the extended reals the two are
  equal by distributivity wherever the activations and scales are real numbers, which is the precondition. The grid's
  last tile holds only 256 of its 512 columns inside the arrays; the entries written back depend on the inputs only
  through those columns, so the words past the arrays' end never reach the result.

  The three frames, the 65 narrowing-and-widening rewrites of the idealization, and the equality of the two results
  are proved in the modules imported below; this file assembles them.
-/
import proofs.«150210_j59425167507986_2_alg».proof.Defs
import proofs.«150210_j59425167507986_2_alg».proof.Proof.Gen.Kernel
import proofs.«150210_j59425167507986_2_alg».proof.Proof.Gen.Kernel.Skeleton
import proofs.«150210_j59425167507986_2_alg».proof.Proof.Gen.Kernel.Launch
import proofs.«150210_j59425167507986_2_alg».proof.Proof.Gen.Kernel.Points
import proofs.«150210_j59425167507986_2_alg».proof.Proof.Gen.Kernel.Frame
import proofs.«150210_j59425167507986_2_alg».proof.Proof.Gen.KernelIdeal
import proofs.«150210_j59425167507986_2_alg».proof.Proof.Gen.KernelIdeal.Skeleton
import proofs.«150210_j59425167507986_2_alg».proof.Proof.Gen.KernelIdeal.Launch
import proofs.«150210_j59425167507986_2_alg».proof.Proof.Gen.KernelIdeal.Points
import proofs.«150210_j59425167507986_2_alg».proof.Proof.Gen.KernelIdeal.Frame
import proofs.«150210_j59425167507986_2_alg».proof.Proof.Gen.ReferenceIdeal
import proofs.«150210_j59425167507986_2_alg».proof.Proof.Gen.ReferenceIdeal.Run
import proofs.«150210_j59425167507986_2_alg».proof.Proof.Gen.ReferenceIdeal.Read
import proofs.«150210_j59425167507986_2_alg».proof.Proof.Gen.Pre_finite_inputs
import proofs.«150210_j59425167507986_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
